-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S512x512 : Shape := ⟨2, ![512, 512]⟩
abbrev S512 : Shape := ⟨1, ![512]⟩
abbrev S1 : Shape := ⟨1, ![1]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S512 .f32) (main_arg8 : FVec F S1 .f32) (main_arg9 : FVec F S1 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S512x512 .f32) (main_arg5 : FVec F S512 .f32) (main_arg6 : FVec F S512x512 .f32) (main_arg7 : FVec F S512 .f32) (main_arg8 : FVec F S1 .f32) (main_arg9 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S32768x512 .f32) (main_arg1 : FVec F S32768x512 .f32) (main_arg2 : FVec F S512x512 .f32) (main_arg3 : FVec F S512 .f32) (main_arg4 : FVec F S512x512 .f32) (main_arg5 : FVec F S512 .f32) (main_arg6 : FVec F S512x512 .f32) (main_arg7 : FVec F S512 .f32) (main_arg8 : FVec F S1 .f32) (main_arg9 : FVec F S1 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_v13 main_v16
-- ==== Kernel.lean ====
abbrev S32768x512 : Shape := ⟨2, ![32768, 512]⟩
abbrev S512x512 : Shape := ⟨2, ![512, 512]⟩
abbrev S512 : Shape := ⟨1, ![512]⟩
abbrev S1 : Shape := ⟨1, ![1]⟩
abbrev S2x512x512 : Shape := ⟨3, ![2, 512, 512]⟩
abbrev S2048x512 : Shape := ⟨2, ![2048, 512]⟩
abbrev S1x512x512 : Shape := ⟨3, ![1, 512, 512]⟩
abbrev S1x512 : Shape := ⟨2, ![1, 512]⟩
abbrev S_ : Shape := ⟨0, ![]⟩
abbrev S1x1 : Shape := ⟨2, ![1, 1]⟩
abbrev S4096x512 : Shape := ⟨2, ![4096, 512]⟩

abbrev nBuf : Space → Nat
  | .hbm => 28
  | .vmem => 21
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S1, .f32⟩
  | .hbm, ⟨9, _⟩ => ⟨S1, .f32⟩
  | .hbm, ⟨10, _⟩ => ⟨S32768x512, .bf16⟩
  | .hbm, ⟨11, _⟩ => ⟨S2x512x512, .f32⟩
  | .hbm, ⟨12, _⟩ => ⟨S_, .f32⟩
  | .hbm, ⟨13, _⟩ => ⟨S512x512, .f32⟩
  | .hbm, ⟨14, _⟩ => ⟨S_, .f32⟩
  | .hbm, ⟨15, _⟩ => ⟨S512x512, .f32⟩
  | .hbm, ⟨16, _⟩ => ⟨S512x512, .f32⟩
  | .hbm, ⟨17, _⟩ => ⟨S_, .f32⟩
  | .hbm, ⟨18, _⟩ => ⟨S1, .f32⟩
  | .hbm, ⟨19, _⟩ => ⟨S1, .f32⟩
  | .hbm, ⟨20, _⟩ => ⟨S1x1, .f32⟩
  | .hbm, ⟨21, _⟩ => ⟨S512x512, .f32⟩
  | .hbm, ⟨22, _⟩ => ⟨S512x512, .f32⟩
  | .hbm, ⟨23, _⟩ => ⟨S1x1, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S32768x512, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S512x512, .f32⟩
  | .local _ .vmem, ⟨5, _⟩ => ⟨S512, .f32⟩
  | .local _ .vmem, ⟨6, _⟩ => ⟨S512x512, .f32⟩
  | .local _ .vmem, ⟨7, _⟩ => ⟨S512, .f32⟩
  | .local _ .vmem, ⟨8, _⟩ => ⟨S512x512, .f32⟩
  | .local _ .vmem, ⟨9, _⟩ => ⟨S512, .f32⟩
  | .local _ .vmem, ⟨10, _⟩ => ⟨S2048x512, .bf16⟩
  | .local _ .vmem, ⟨11, _⟩ => ⟨S2048x512, .bf16⟩
  | .local _ .vmem, ⟨12, _⟩ => ⟨S1x512x512, .f32⟩
  | .local _ .vmem, ⟨13, _⟩ => ⟨S1x512x512, .f32⟩
  | .local _ .vmem, ⟨14, _⟩ => ⟨S512x512, .f32⟩
  | .local _ .vmem, ⟨15, _⟩ => ⟨S4096x512, .bf16⟩
  | .local _ .vmem, ⟨16, _⟩ => ⟨S4096x512, .bf16⟩
  | .local _ .vmem, ⟨17, _⟩ => ⟨S512x512, .f32⟩
  | .local _ .vmem, ⟨18, _⟩ => ⟨S512, .f32⟩
  | .local _ .vmem, ⟨19, _⟩ => ⟨S4096x512, .f32⟩
  | .local _ .vmem, ⟨20, _⟩ => ⟨S4096x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v46 : BitVec 1 := Scalar.cmpi .eq arg1 c7_i32
  let v47 : BitVec 32 := Scalar.extui v46
  let c0_i32_24 : BitVec 32 := 0#32
  let v48 : BitVec 1 := Scalar.cmpi .ne v47 c0_i32_24
  v48

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  transposes_S512x512_p1_0_S512x512 : S512x512.Transposes [1, 0] S512x512
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  packedbf16_S2048x512_S2048x512_0_0 : (Rect.unit (s := S2048x512) ![0, 0] S2048x512.size inb_S2048x512_S2048x512_0_0).PackedRows (EltTy.packing .bf16)
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  reducesTo_S2x512x512_S512x512_d0 : S2x512x512.ReducesTo [0] S512x512
  h_S_ : 0 < S_.numel
  bcast_S_S512x512 : S_.BroadcastsInDim S512x512 (![] : Fin 0 → Fin S512x512.rank)
  bcast_S_S1 : S_.BroadcastsInDim S1 (![] : Fin 0 → Fin S1.rank)
  bcast_S1_S1x1_1 : S1.BroadcastsInDim S1x1 (![1] : Fin 1 → Fin S1x1.rank)
  bcast_S1x1_S512x512_0_1 : S1x1.BroadcastsInDim S512x512 (![0, 1] : Fin 2 → Fin S512x512.rank)
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  broadcasts_S1x512_S4096x512 : S1x512.Broadcasts S4096x512
  dot_S2048x512_S512x512_S2048x512_1_0_0_1_n_n_wf : DotDims.WF S2048x512 S512x512 S2048x512 [1] [0] [0] [1] [] []
  dot_S2048x512_S2048x512_S512x512_0_0_1_1_n_n_wf : DotDims.WF S2048x512 S2048x512 S512x512 [0] [0] [1] [1] [] []
  dot_S4096x512_S512x512_S4096x512_1_0_0_1_n_n_wf : DotDims.WF S4096x512 S512x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S32768x512.size a
  hwx0_1 : ∀ i : grid0.Coords, EltTy.bits .f32 = 32 ∨ (Rect.block (s := S32768x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x512.size a ≤ S32768x512.size a
  hwx0_8 : ∀ i : grid0.Coords, EltTy.bits .bf16 = 32 ∨ (Rect.block (s := S32768x512) S2048x512.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x512.size a ≤ S2x512x512.size a
  hwx0_9 : ∀ i : grid0.Coords, EltTy.bits .f32 = 32 ∨ (Rect.block (s := S2x512x512) S1x512x512.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x512.size a ≤ S32768x512.size a
  hwx1_0 : ∀ i : grid1.Coords, EltTy.bits .bf16 = 32 ∨ (Rect.block (s := S32768x512) S4096x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x512.size a ≤ S32768x512.size a
  hwx1_3 : ∀ i : grid1.Coords, EltTy.bits .f32 = 32 ∨ (Rect.block (s := S32768x512) S4096x512.size (cc1_transform_3 i) (hinb1_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S2048x512_S512x512_0_0_1_1_n_n : DotDims S2048x512 S2048x512 S512x512 where
  lhsContracting := [0]
  rhsContracting := [0]
  lhsNonContracting := [1]
  rhsNonContracting := [1]
  lhsBatch := []
  rhsBatch := []
  wf := dot_S2048x512_S2048x512_S512x512_0_0_1_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S2048x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S1x512x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

abbrev win1_0 : Pipeline.Window sig grid1 :=
  Pipeline.Window.ofSpec (Memref.whole main_v0_0) S4096x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S4096x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32768x512 : Shape := ⟨2, ![32768, 512]⟩
abbrev S512x512 : Shape := ⟨2, ![512, 512]⟩
abbrev S512 : Shape := ⟨1, ![512]⟩
abbrev S1 : Shape := ⟨1, ![1]⟩
abbrev S1x512 : Shape := ⟨2, ![1, 512]⟩
abbrev S_ : Shape := ⟨0, ![]⟩
abbrev S512x32768 : Shape := ⟨2, ![512, 32768]⟩
abbrev S1x1 : Shape := ⟨2, ![1, 1]⟩

abbrev nBuf : Space → Nat
  | .hbm => 52
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S1, .f32⟩
  | .hbm, ⟨9, _⟩ => ⟨S1, .f32⟩
  | .hbm, ⟨10, _⟩ => ⟨S512x512, .f32⟩
  | .hbm, ⟨11, _⟩ => ⟨S32768x512, .f32⟩
  | .hbm, ⟨12, _⟩ => ⟨S1x512, .f32⟩
  | .hbm, ⟨13, _⟩ => ⟨S32768x512, .f32⟩
  | .hbm, ⟨14, _⟩ => ⟨S32768x512, .f32⟩
  | .hbm, ⟨15, _⟩ => ⟨S_, .f32⟩
  | .hbm, ⟨16, _⟩ => ⟨S32768x512, .f32⟩
  | .hbm, ⟨17, _⟩ => ⟨S32768x512, .f32⟩
  | .hbm, ⟨18, _⟩ => ⟨S512x512, .f32⟩
  | .hbm, ⟨19, _⟩ => ⟨S32768x512, .f32⟩
  | .hbm, ⟨20, _⟩ => ⟨S1x512, .f32⟩
  | .hbm, ⟨21, _⟩ => ⟨S32768x512, .f32⟩
  | .hbm, ⟨22, _⟩ => ⟨S32768x512, .f32⟩
  | .hbm, ⟨23, _⟩ => ⟨S_, .f32⟩
  | .hbm, ⟨24, _⟩ => ⟨S32768x512, .f32⟩
  | .hbm, ⟨25, _⟩ => ⟨S32768x512, .f32⟩
  | .hbm, ⟨26, _⟩ => ⟨S512x512, .f32⟩
  | .hbm, ⟨27, _⟩ => ⟨S32768x512, .f32⟩
  | .hbm, ⟨28, _⟩ => ⟨S1x512, .f32⟩
  | .hbm, ⟨29, _⟩ => ⟨S32768x512, .f32⟩
  | .hbm, ⟨30, _⟩ => ⟨S32768x512, .f32⟩
  | .hbm, ⟨31, _⟩ => ⟨S32768x512, .f32⟩
  | .hbm, ⟨32, _⟩ => ⟨S512x32768, .f32⟩
  | .hbm, ⟨33, _⟩ => ⟨S512x512, .f32⟩
  | .hbm, ⟨34, _⟩ => ⟨S_, .f32⟩
  | .hbm, ⟨35, _⟩ => ⟨S512x512, .f32⟩
  | .hbm, ⟨36, _⟩ => ⟨S512x512, .f32⟩
  | .hbm, ⟨37, _⟩ => ⟨S1x1, .f32⟩
  | .hbm, ⟨38, _⟩ => ⟨S512x512, .f32⟩
  | .hbm, ⟨39, _⟩ => ⟨S512x512, .f32⟩
  | .hbm, ⟨40, _⟩ => ⟨S_, .f32⟩
  | .hbm, ⟨41, _⟩ => ⟨S1, .f32⟩
  | .hbm, ⟨42, _⟩ => ⟨S1, .f32⟩
  | .hbm, ⟨43, _⟩ => ⟨S1x1, .f32⟩
  | .hbm, ⟨44, _⟩ => ⟨S512x512, .f32⟩
  | .hbm, ⟨45, _⟩ => ⟨S512x512, .f32⟩
  | .hbm, ⟨46, _⟩ => ⟨S512x512, .f32⟩
  | .hbm, ⟨47, _⟩ => ⟨S512x512, .f32⟩
  | .hbm, ⟨48, _⟩ => ⟨S32768x512, .f32⟩
  | .hbm, ⟨49, _⟩ => ⟨S1x512, .f32⟩
  | .hbm, ⟨50, _⟩ => ⟨S32768x512, .f32⟩
  | .hbm, ⟨51, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  transposes_S32768x512_S512x32768_1_0 : S32768x512.Transposes [1, 0] S512x32768
  bcast_S_S512x512 : S_.BroadcastsInDim S512x512 (![] : Fin 0 → Fin S512x512.rank)
  bcast_S1_S1x1_1 : S1.BroadcastsInDim S1x1 (![1] : Fin 1 → Fin S1x1.rank)
  bcast_S1x1_S512x512_0_1 : S1x1.BroadcastsInDim S512x512 (![0, 1] : Fin 2 → Fin S512x512.rank)
  bcast_S_S1 : S_.BroadcastsInDim S1 (![] : Fin 0 → Fin S1.rank)
  dot_S32768x512_S512x512_S32768x512_1_0_0_1_n_n_wf : DotDims.WF S32768x512 S512x512 S32768x512 [1] [0] [0] [1] [] []
  dot_S512x32768_S32768x512_S512x512_1_0_0_1_n_n_wf : DotDims.WF S512x32768 S32768x512 S512x512 [1] [0] [0] [1] [] []

variable [Facts₀]

def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S512x32768_S32768x512_S512x512_1_0_0_1_n_n : DotDims S512x32768 S32768x512 S512x512 where
  lhsContracting := [1]
  rhsContracting := [0]
  lhsNonContracting := [0]
  rhsNonContracting := [1]
  lhsBatch := []
  rhsBatch := []
  wf := dot_S512x32768_S32768x512_S512x512_1_0_0_1_n_n_wf

class Facts : Prop extends Facts₀ where

variable [Facts]
-- ==== Proof.WFrShared.lean ====
/-
  What the two kernel regions' frame proofs share: a window's block of its array at a grid point, that an input
  window's current buffer holds that block at every point, the closed forms of the first kernel's two branch
  conditions over its 2 x 8 grid (the first and the last step of each of the two chunks), where its gradient
  output is idle, and the accumulator it carries between points as a memref.
-/
import proofs.«101176_j62654982914321_1_alg».proof.Proof.Gen.Kernel.Launch
import proofs.«101176_j62654982914321_1_alg».proof.Proof.Gen.Kernel.Skeleton
import proofs.«101176_j62654982914321_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
-- the core's buffer contents when a region is entered: every statement about a region is made at this parameter
variable (V : (c : Dev nD) → (b : Ref sig .tc) → Buf (Elt F) ((c : Thread nD τ).loc b))

/-- Window w's block at point t of the first region, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window w's block at point t of the second region. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of the first region holds its block at every point, fetched there or not, for any proof data whose
    array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 of the first region holds its block at every point, fetched there or not, for any proof data whose
    array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 of the first region holds its block at every point, fetched there or not, for any proof data whose
    array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 of the first region holds its block at every point, fetched there or not, for any proof data whose
    array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 of the first region holds its block at every point, fetched there or not, for any proof data whose
    array is the entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5 of the first region holds its block at every point, fetched there or not, for any proof data whose
    array is the entry contents and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6 of the first region holds its block at every point, fetched there or not, for any proof data whose
    array is the entry contents and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7 of the first region holds its block at every point, fetched there or not, for any proof data whose
    array is the entry contents and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 0 of the second region holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 of the second region holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 of the second region holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The first kernel's branch conditions over its grid -/

/-- "This is the first step of the chunk": the accumulator is reset. -/
abbrev cond0_0 (i : grid0.Coords) : Prop := (Scalar.cmpi .ne (Scalar.extui (Scalar.cmpi .eq (BitVec.ofNat 32 (i 1).val) 0#32)) 0#32) = 1#1
/-- It holds at the points 0 and 8 of the 16. -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last step of the chunk": the accumulator is written out. -/
abbrev cond0_1 (i : grid0.Coords) : Prop := k0_cond2 i = 1#1
/-- It holds at the points 7 and 15. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the first region's windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
/-- At a chunk's first step nothing is stored into the gradient output, and its block is not written back. -/
theorem idleAt0_9_A : ∀ t : Fin cfg0.N, cond0_0 (grid0.coords t) → ¬cond0_1 (grid0.coords t) → cfg0.idle 9 (grid0.coords t) = true := by decide +kernel
theorem noFlush0_9_A : ∀ t : Fin cfg0.N, cond0_0 (grid0.coords t) → ¬cond0_1 (grid0.coords t) → (cfg0.win 9).flush t = false := by decide +kernel
/-- The same at a middle step. -/
theorem idleAt0_9_B : ∀ t : Fin cfg0.N, ¬cond0_0 (grid0.coords t) → ¬cond0_1 (grid0.coords t) → cfg0.idle 9 (grid0.coords t) = true := by decide +kernel
theorem noFlush0_9_B : ∀ t : Fin cfg0.N, ¬cond0_0 (grid0.coords t) → ¬cond0_1 (grid0.coords t) → (cfg0.win 9).flush t = false := by decide +kernel
/-- At a chunk's last step the gradient output is stored. -/
theorem liveAt0_9_C : ∀ t : Fin cfg0.N, ¬cond0_0 (grid0.coords t) → cond0_1 (grid0.coords t) → cfg0.idle 9 (grid0.coords t) = false := by decide +kernel

/-! ## The memrefs the first kernel is called with -/

/-- One staging buffer of each output window of the first region, through which its contents are stated. -/
abbrev VO0_8 : View sig .tc .vmem S2048x512 .bf16 := (Memref.whole cc0_stg8_0 : Memref sig .tc .vmem S2048x512 .bf16).view
abbrev VO0_9 : View sig .tc .vmem S1x512x512 .f32 := (Memref.whole cc0_stg9_0 : Memref sig .tc .vmem S1x512x512 .f32).view
abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x512 .f32 := win0_9.stage (cfg0.slots t 9)
abbrev hs0_9 (t : Fin cfg0.N) : (ms0_9 t).IsWhole := hstage0_9 ((cfg0.slots t 9).cast nbuf0_9)
/-- The accumulator: a whole scoped buffer of the kernel's own, passed beside the windows. -/
abbrev scM0 : Memref sig .tc .vmem S512x512 .f32 := Memref.whole cc0_scratch0
abbrev VS0 : View sig .tc .vmem S512x512 .f32 := scM0.view

/-- The core's other scoped buffers that no window of the first region stages (the second region's staging buffers),
    each at some contents: they ride through the first region untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the region hands the kernel besides the windows: the accumulator at some contents, the other scoped buffers,
    the generator register at some state. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; try rfl

end Cert.Kernel.Fr

end
-- ==== Proof.WFrRunA.lean ====
/-
  The first kernel's body at the first step of a chunk (the accumulator is reset to zero, then added to; nothing is stored into the gradient output): run once on whole staging memrefs, the input
  windows' at given contents, the encoded-rows output's at anything; the stores each written buffer ends with are
  found by the run itself, as lists of pieces.
-/
import proofs.«101176_j62654982914321_1_alg».proof.Proof.WFrShared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the encoded-rows output (L8), in the gradient output (L9) and in the accumulator (LS0)
    in this case, with the body's triple: from the inputs' memrefs at their contents the body runs to the continuation
    holding the inputs as they were and each written buffer with its pieces written. -/
noncomputable def kernelRun0_A (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : cond0_0 i) (hc1 : ¬cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) :
    Σ' (L8 : List (View.Piece (Elt F) S2048x512 .bf16)) (L9 : List (View.Piece (Elt F) S1x512x512 .f32)), { LS0 : List (View.Piece (Elt F) S512x512 .f32) //
      ∀ (xi9 : Vec F S1x512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xi9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0__encode_and_grad_kernel i arg2 harg2 arg3 harg3 arg4 harg4 arg5 harg5 arg6 harg6 arg7 harg7 arg8 harg8 arg9 harg9 arg10 harg10 arg11 harg11 arg12 harg12) K } := by
  refine ⟨?_, [], ?_, fun xi9 E K => ?run⟩
  case run =>
    simp only [cc0__encode_and_grad_kernel_eq_skeleton]; unfold cc0__encode_and_grad_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    iexists _; iexact HS0

end Cert.Kernel.Fr

end
-- ==== Proof.WFrRunB.lean ====
/-
  The first kernel's body at a middle step of a chunk (the accumulator the step before left is added to; nothing is stored into the gradient output): run once on whole staging memrefs, the input
  windows' at given contents, the encoded-rows output's at anything; the stores each written buffer ends with are
  found by the run itself, as lists of pieces.
-/
import proofs.«101176_j62654982914321_1_alg».proof.Proof.WFrShared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the encoded-rows output (L8), in the gradient output (L9) and in the accumulator (LS0)
    in this case, with the body's triple: from the inputs' memrefs at their contents the body runs to the continuation
    holding the inputs as they were and each written buffer with its pieces written. -/
noncomputable def kernelRun0_B (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : ¬cond0_0 i) (hc1 : ¬cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (xs0 : Vec F S512x512 .f32) :
    Σ' (L8 : List (View.Piece (Elt F) S2048x512 .bf16)) (L9 : List (View.Piece (Elt F) S1x512x512 .f32)), { LS0 : List (View.Piece (Elt F) S512x512 .f32) //
      ∀ (xi9 : Vec F S1x512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0__encode_and_grad_kernel i arg2 harg2 arg3 harg3 arg4 harg4 arg5 harg5 arg6 harg6 arg7 harg7 arg8 harg8 arg9 harg9 arg10 harg10 arg11 harg11 arg12 harg12) K } := by
  refine ⟨?_, [], ?_, fun xi9 E K => ?run⟩
  case run =>
    simp only [cc0__encode_and_grad_kernel_eq_skeleton]; unfold cc0__encode_and_grad_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    iexists _; iexact HS0

end Cert.Kernel.Fr

end
-- ==== Proof.WFrRunC.lean ====
/-
  The first kernel's body at the last step of a chunk (the accumulator is added to and then copied whole into the gradient output): run once on whole staging memrefs, the input
  windows' at given contents, the encoded-rows output's at anything; the stores each written buffer ends with are
  found by the run itself, as lists of pieces.
-/
import proofs.«101176_j62654982914321_1_alg».proof.Proof.WFrShared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the encoded-rows output (L8), in the gradient output (L9) and in the accumulator (LS0)
    in this case, with the body's triple: from the inputs' memrefs at their contents the body runs to the continuation
    holding the inputs as they were and each written buffer with its pieces written. -/
noncomputable def kernelRun0_C (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : ¬cond0_0 i) (hc1 : cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (xs0 : Vec F S512x512 .f32) :
    Σ' (L8 : List (View.Piece (Elt F) S2048x512 .bf16)) (L9 : List (View.Piece (Elt F) S1x512x512 .f32)), { LS0 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0__encode_and_grad_kernel i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__encode_and_grad_kernel_eq_skeleton]; unfold cc0__encode_and_grad_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    iexists _; iexact HS0

end Cert.Kernel.Fr

end
-- ==== Proof.WFrRegion0.lean ====
/-
  The first region (the encoder, the residual and the accumulated outer products) as pipeline proof data: what each
  case of the body leaves in the encoded-rows output, in the gradient output and in the accumulator, read back from the
  pieces its run found; what these hold after every grid point, by recursion on the point (the accumulator of a middle
  or last step is computed from what the step before left); the invariant carrying the accumulator from point to
  point; and the body obligation at every point.
-/
import proofs.«101176_j62654982914321_1_alg».proof.Proof.WFrRunA
import proofs.«101176_j62654982914321_1_alg».proof.Proof.WFrRunB
import proofs.«101176_j62654982914321_1_alg».proof.Proof.WFrRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A: the encoded-rows output's pieces tile its buffer. -/
theorem cover0_A_8 (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : cond0_0 i) (hc1 : ¬cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (y : S2048x512.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).1 S2048x512.size (by sl_kernel_rfl) y
/-- Case A: what the body leaves in the encoded-rows output. -/
def out0_A_8 (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : cond0_0 i) (hc1 : ¬cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) : Vec F S2048x512 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).1)
/-- Case A: what the body leaves in the gradient output (nothing is stored: a placeholder nothing consults). -/
def out0_A_9 (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : cond0_0 i) (hc1 : ¬cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) : Vec F S1x512x512 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.1)
/-- Case A: the accumulator's pieces tile it. -/
theorem scover0_A (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : cond0_0 i) (hc1 : ¬cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (y : S512x512.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1 S512x512.size (by sl_kernel_rfl) y
/-- Case A: what the body leaves in the accumulator. -/
def sout0_A (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : cond0_0 i) (hc1 : ¬cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) : Vec F S512x512 .f32 :=
  VS0.read (Elt F) (VS0.writes (Elt F) VS0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1)

/-- Case B: the encoded-rows output's pieces tile its buffer. -/
theorem cover0_B_8 (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : ¬cond0_0 i) (hc1 : ¬cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (xs0 : Vec F S512x512 .f32) (y : S2048x512.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1 S2048x512.size (by sl_kernel_rfl) y
/-- Case B: what the body leaves in the encoded-rows output. -/
def out0_B_8 (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : ¬cond0_0 i) (hc1 : ¬cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (xs0 : Vec F S512x512 .f32) : Vec F S2048x512 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1)
/-- Case B: what the body leaves in the gradient output (nothing is stored: a placeholder nothing consults). -/
def out0_B_9 (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : ¬cond0_0 i) (hc1 : ¬cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (xs0 : Vec F S512x512 .f32) : Vec F S1x512x512 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1)
/-- Case B: the accumulator's pieces tile it. -/
theorem scover0_B (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : ¬cond0_0 i) (hc1 : ¬cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (xs0 : Vec F S512x512 .f32) (y : S512x512.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1 S512x512.size (by sl_kernel_rfl) y
/-- Case B: what the body leaves in the accumulator. -/
def sout0_B (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : ¬cond0_0 i) (hc1 : ¬cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (xs0 : Vec F S512x512 .f32) : Vec F S512x512 .f32 :=
  VS0.read (Elt F) (VS0.writes (Elt F) VS0.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1)

/-- Case C: the encoded-rows output's pieces tile its buffer. -/
theorem cover0_C_8 (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : ¬cond0_0 i) (hc1 : cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (xs0 : Vec F S512x512 .f32) (y : S2048x512.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1 S2048x512.size (by sl_kernel_rfl) y
/-- Case C: what the body leaves in the encoded-rows output. -/
def out0_C_8 (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : ¬cond0_0 i) (hc1 : cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (xs0 : Vec F S512x512 .f32) : Vec F S2048x512 .bf16 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1)
/-- Case C: the gradient output's pieces tile its buffer. -/
theorem cover0_C_9 (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : ¬cond0_0 i) (hc1 : cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (xs0 : Vec F S512x512 .f32) (y : S1x512x512.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1 S1x512x512.size (by sl_kernel_rfl) y
/-- Case C: what the body leaves in the gradient output. -/
def out0_C_9 (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : ¬cond0_0 i) (hc1 : cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (xs0 : Vec F S512x512 .f32) : Vec F S1x512x512 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1)
/-- Case C: the accumulator's pieces tile it. -/
theorem scover0_C (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : ¬cond0_0 i) (hc1 : cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (xs0 : Vec F S512x512 .f32) (y : S512x512.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1 S512x512.size (by sl_kernel_rfl) y
/-- Case C: what the body leaves in the accumulator. -/
def sout0_C (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : ¬cond0_0 i) (hc1 : cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (xs0 : Vec F S512x512 .f32) : Vec F S512x512 .f32 :=
  VS0.read (Elt F) (VS0.writes (Elt F) VS0.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1)

section Acc
variable (V : (c : Dev nD) → (b : Ref sig .tc) → Buf (Elt F) ((c : Thread nD τ).loc b))

/-- What the two output windows' staging buffers and the accumulator hold after the body at position n (in that order):
    the case the position is in (first, middle or last step of its chunk), run on the point's input blocks, a middle or
    last step over the accumulator the position before left. -/
def outsAt0 (c : Dev nD) : (n : ℕ) → n < cfg0.N → Vec F S2048x512 .bf16 × Vec F S1x512x512 .f32 × Vec F S512x512 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩))
  | n + 1, hn =>
    if h0 : (n + 1) % 8 = 0 then
      if h1 : (n + 1) % 8 = 7 then
        False.elim (by omega)
      else
        (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩))
    else
      if h1 : (n + 1) % 8 = 7 then
        (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2)
      else
        (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2)

/-- At a chunk's first step. -/
theorem outsAt0_A (c : Dev nD) (t : Fin cfg0.N) (h0 : t.val % 8 = 0) (h1 : ¬t.val % 8 = 7) :
    outsAt0 V c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t), sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)) := by
  obtain ⟨n, hn⟩ := t
  cases n with
  | zero => exact rfl
  | succ n => exact (dif_pos h0).trans ((dif_neg h1).trans rfl)

/-- At a middle step: over the accumulator the step before left. -/
theorem outsAt0_B (c : Dev nD) (t : Fin cfg0.N) (h0 : ¬t.val % 8 = 0) (h1 : ¬t.val % 8 = 7) :
    outsAt0 V c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2, sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a chunk's last step: over the accumulator the step before left. -/
theorem outsAt0_C (c : Dev nD) (t : Fin cfg0.N) (h0 : ¬t.val % 8 = 0) (h1 : t.val % 8 = 7) :
    outsAt0 V c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2, sout0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point whatever the launch hands over; afterwards the
    accumulator at what the point before left, the other scoped buffers and the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2.2) ∗ others0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2.2) ∗ others0 c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2.2) ∗ others0 c) ∗ (∃ r, prngReg c r)) := by
  cases n with
  | zero => exact absurd rfl hz
  | succ n => rfl

/-- The first region's proof data on core c: the arrays as the region finds them; after the body at point t each
    input's buffer at its block, the outputs' at what the accumulation says; the invariant carrying the accumulator. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => (outsAt0 V c t.val t.isLt).1
    | ⟨9, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = (outsAt0 V c t.val t.isLt).1 := by dsimp only [dat0]
theorem after0_9 (c : Dev nD) (t : Fin cfg0.N) : (dat0 V c).after 9 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 8000000 in
/-- The body at any point: the inputs' memrefs hold their blocks; the closed forms say which case the point is in; the
    invariant hands the body the accumulator at what the point before left (at anything at the very first point) and takes
    it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  rw [show (dat0 V c).leavesExact 8 t = owns (c : Thread nD τ) (ms0_8 t) fullShare ((dat0 V c).after 8 t) from by
    unfold Dat.leavesExact; rw [liveAt0_8 t], after0_8]
  by_cases h0 : t.val % 8 = 0
  · have h1 : ¬t.val % 8 = 7 := by omega
    rw [Dat.leavesExact_idle (dat0 V c) 9 t (idleAt0_9_A t ((hcond0_0 t).mpr h0) (fun h => h1 ((hcond0_1 t).mp h))) (noFlush0_9_A t ((hcond0_0 t).mpr h0) (fun h => h1 ((hcond0_1 t).mp h)))]
    rw [outsAt0_A V c t h0 h1]
    unfold out0_A_8 sout0_A; (try dsimp only)
    by_cases hz : t.val = 0
    · rw [PhiS_castSucc V c t, PhiS_zero V c _ _ hz, PhiA0_eq]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [HS0]; · iexact HS0
      iintro ⟨H0, H1, H2, H3, H4, H5, H6, H7, ⟨%e8, H8⟩, H9, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t))
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t))
      iexists _; iexact H9
    · rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [HS0]; · iexists _; iexact HS0
      iintro ⟨H0, H1, H2, H3, H4, H5, H6, H7, ⟨%e8, H8⟩, H9, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t))
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t))
      iexists _; iexact H9
  · have hz : t.val ≠ 0 := by omega
    by_cases h1 : t.val % 8 = 7
    · rw [show (dat0 V c).leavesExact 9 t = owns (c : Thread nD τ) (ms0_9 t) fullShare ((dat0 V c).after 9 t) from by
        unfold Dat.leavesExact; rw [liveAt0_9_C t (fun h => h0 ((hcond0_0 t).mp h)) ((hcond0_1 t).mpr h1)], after0_9]
      rw [outsAt0_C V c t h0 h1]
      unfold out0_C_8 out0_C_9 sout0_C; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      iintro ⟨H0, H1, H2, H3, H4, H5, H6, H7, ⟨%e8, H8⟩, ⟨%e9, H9⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) _)
      unfold owns; iexists _; isplitr
      swap; · iexact H9
      ipureintro; exact View.read_writes_of_cover _ _ _ _ _ (cover0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) _)
    · rw [Dat.leavesExact_idle (dat0 V c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      rw [outsAt0_B V c t h0 h1]
      unfold out0_B_8 sout0_B; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [HS0]; · iexact HS0
      iintro ⟨H0, H1, H2, H3, H4, H5, H6, H7, ⟨%e8, H8⟩, H9, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) _)
      iexists _; iexact H9

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the same back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 16 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hoth⟩, Hg⟩
  isplitl [HS0 Hoth]
  · isplitl [HS0]
    · iexists _; iexact HS0
    iexact Hoth
  iexact Hg

end Acc

end Cert.Kernel.Fr

end
-- ==== Proof.WFrRun1.lean ====
/-
  The second kernel's body (the encoded rows of one tile times the transposed updated matrix, plus the bias) run once
  on whole staging memrefs: the inputs' at given contents, the output's at anything; the store the output ends with is
  found by the run itself.
-/
import proofs.«101176_j62654982914321_1_alg».proof.Proof.WFrShared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One staging buffer of the second region's output window, through which its contents are stated. -/
abbrev VO1_3 : View sig .tc .vmem S4096x512 .f32 := (Memref.whole cc1_stg3_0 : Memref sig .tc .vmem S4096x512 .f32).view
abbrev ms1_0 (t : Fin cfg1.N) : Memref sig .tc .vmem S4096x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x512 .f32 := win1_3.stage (cfg1.slots t 3)
abbrev hs1_3 (t : Fin cfg1.N) : (ms1_3 t).IsWhole := hstage1_3 ((cfg1.slots t 3).cast nbuf1_3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

set_option maxHeartbeats 4000000 in
/-- The pieces the body leaves in the output's staging memref, with the body's triple. -/
noncomputable def kernelRun1 (c : Dev nD) (i : grid1.Coords) (arg1 : Memref sig .tc .vmem S4096x512 .bf16) (harg1 : arg1.IsWhole) (arg2 : Memref sig .tc .vmem S512x512 .f32) (harg2 : arg2.IsWhole) (arg3 : Memref sig .tc .vmem S512 .f32) (harg3 : arg3.IsWhole) (arg4 : Memref sig .tc .vmem S4096x512 .f32) (harg4 : arg4.IsWhole)
    (x0 : Vec F S4096x512 .bf16) (x1 : Vec F S512x512 .f32) (x2 : Vec F S512 .f32) :
    { L3 : List (View.Piece (Elt F) S4096x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc1__final_kernel i arg1 harg1 arg2 harg2 arg3 harg3 arg4 harg4) K } := by
  refine ⟨?_, fun E K => ?run⟩
  case run =>
    simp only [cc1__final_kernel_eq_skeleton]; unfold cc1__final_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Kernel.Fr

end
-- ==== Proof.WFrRegion1.lean ====
/-
  The second region (the encoded rows read through the updated matrix) as pipeline proof data: what the body leaves in
  its output window's buffer, read back from the piece its run found; the proof data with the class invariant (the
  kernel keeps nothing between points); and the body obligation at every point.
-/
import proofs.«101176_j62654982914321_1_alg».proof.Proof.WFrRun1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output's pieces tile its buffer. -/
theorem cover1_3 (c : Dev nD) (i : grid1.Coords) (arg1 : Memref sig .tc .vmem S4096x512 .bf16) (harg1 : arg1.IsWhole) (arg2 : Memref sig .tc .vmem S512x512 .f32) (harg2 : arg2.IsWhole) (arg3 : Memref sig .tc .vmem S512 .f32) (harg3 : arg3.IsWhole) (arg4 : Memref sig .tc .vmem S4096x512 .f32) (harg4 : arg4.IsWhole)
    (x0 : Vec F S4096x512 .bf16) (x1 : Vec F S512x512 .f32) (x2 : Vec F S512 .f32) (y : S4096x512.Idx) :
    ∃ pc ∈ (kernelRun1 c i arg1 harg1 arg2 harg2 arg3 harg3 arg4 harg4 x0 x1 x2).1, y ∈ pc.1.set :=
  View.cover_of_tiledL (kernelRun1 c i arg1 harg1 arg2 harg2 arg3 harg3 arg4 harg4 x0 x1 x2).1 S4096x512.size (by sl_kernel_rfl) y
/-- What the body leaves in the output's staging buffer. -/
def out1_3 (c : Dev nD) (i : grid1.Coords) (arg1 : Memref sig .tc .vmem S4096x512 .bf16) (harg1 : arg1.IsWhole) (arg2 : Memref sig .tc .vmem S512x512 .f32) (harg2 : arg2.IsWhole) (arg3 : Memref sig .tc .vmem S512 .f32) (harg3 : arg3.IsWhole) (arg4 : Memref sig .tc .vmem S4096x512 .f32) (harg4 : arg4.IsWhole)
    (x0 : Vec F S4096x512 .bf16) (x1 : Vec F S512x512 .f32) (x2 : Vec F S512 .f32) : Vec F S4096x512 .f32 :=
  VO1_3.read (Elt F) (VO1_3.writes (Elt F) VO1_3.junk (kernelRun1 c i arg1 harg1 arg2 harg2 arg3 harg3 arg4 harg4 x0 x1 x2).1)

section Data
variable (V : (c : Dev nD) → (b : Ref sig .tc) → Buf (Elt F) ((c : Thread nD τ).loc b))

/-- The second region's proof data on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point: the inputs' memrefs hold their blocks, so the run applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  unfold out1_3; (try dsimp only)
  iintro ⟨HΦ, Ho, ⟨%d0, H0⟩, ⟨%d1, H1⟩, ⟨%d2, H2⟩, ⟨%d3, H3⟩⟩
  iapply ((kernelRun1 c (grid1.coords t) (ms1_0 t) (hs1_0 t) (ms1_1 t) (hs1_1 t) (ms1_2 t) (hs1_2 t) (ms1_3 t) (hs1_3 t) (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_3 c (grid1.coords t) (ms1_0 t) (hs1_0 t) (ms1_1 t) (hs1_1 t) (ms1_2 t) (hs1_2 t) (ms1_3 t) (hs1_3 t) (iblk1 V c 0 t) (iblk1 V c 1 t) (iblk1 V c 2 t))

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Data

end Cert.Kernel.Fr

end
-- ==== Proof.WFrMain.lean ====
/-
  The whole program's run: the buffers' contents at every boundary between the first region, the host operations that
  build the updated matrix, and the second region, as a fold from the launch memory; each argument array read back
  through the fold to its launch contents; the two regions as segments; and the run itself: every weakly fair execution
  terminates, nothing faults, and every unscoped buffer ends at the last boundary's contents.
-/
import proofs.«101176_j62654982914321_1_alg».proof.Proof.WFrRegion0
import proofs.«101176_j62654982914321_1_alg».proof.Proof.WFrRegion1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operations (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := (W1_arr m ρ c 3).trans (((dat0 (V0 m ρ) c).arrAt_in 3 rfl _).trans (A_eq0 (V0 m ρ) c 3))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := (W1_arr m ρ c 4).trans (((dat0 (V0 m ρ) c).arrAt_in 4 rfl _).trans (A_eq0 (V0 m ρ) c 4))
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := (W1_arr m ρ c 5).trans (((dat0 (V0 m ρ) c).arrAt_in 5 rfl _).trans (A_eq0 (V0 m ρ) c 5))
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := (W1_arr m ρ c 6).trans (((dat0 (V0 m ρ) c).arrAt_in 6 rfl _).trans (A_eq0 (V0 m ρ) c 6))
    _ = m ((c : Thread nD τ).loc main_arg6) := rfl
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := (W3_arr m ρ c 2).trans (((dat1 (V2 m ρ) c).arrAt_in 2 rfl _).trans (A_eq1 (V2 m ρ) c 2))
    _ = W1 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := (W1_arr m ρ c 7).trans (((dat0 (V0 m ρ) c).arrAt_in 7 rfl _).trans (A_eq0 (V0 m ρ) c 7))
    _ = m ((c : Thread nD τ).loc main_arg7) := rfl
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := W1_of_ne m ρ c main_arg8 (by decide)
    _ = m ((c : Thread nD τ).loc main_arg8) := rfl
theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := W1_of_ne m ρ c main_arg9 (by decide)
    _ = m ((c : Thread nD τ).loc main_arg9) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

-- the library's lemmas are stated over the pinned configuration: unifying with it takes unfolding plain definitions in a metavariable's type
set_option backward.isDefEq.respectTransparency.types false in
/-- Region 0 over the thread state "every unscoped buffer at the boundary's contents, the generator register at some
    state, nothing owed": its arrays split out of the unscoped buffers at entry and put back at what the pipeline leaves
    at exit; the generator register into the invariant and out; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 0).pre c (fun _ => fullShare) (adm (F := F) 0).1 ∗ Pipeline.scopedRest spec0 c) : sProp 𝕄) ⊢ Pipeline.ΦA spec0 c := by
      unfold Pipeline.ΦA
      iintro ⟨Hp, -, Hr⟩
      isplitl [Hr]; · iexact Hr
      iexact Hp
    exact h1.trans (hin0 (V0 m ρ) c)
  hout c := by
    rw [Pipeline.ownSems0_none]
    have h1 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (V0 m ρ) c).trans h1
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration: unifying with it takes unfolding plain definitions in a metavariable's type
set_option backward.isDefEq.respectTransparency.types false in
/-- Region 1 over the thread state "every unscoped buffer at the boundary's contents, the generator register at some
    state, nothing owed": its arrays split out of the unscoped buffers at entry and put back at what the pipeline leaves
    at exit; the generator register into the invariant and out; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c),
    (h c _ (mem_uc main_arg9 (by decide))).trans (W3_main_arg9 m ρ c)⟩) (run_all m ρ)

end Cert.Kernel.Fr

end
-- ==== Proof.FrShared.lean ====
/-
  What the two kernel regions' frame proofs share: a window's block of its array at a grid point, that an input
  window's current buffer holds that block at every point, the closed forms of the first kernel's two branch
  conditions over its 2 x 8 grid (the first and the last step of each of the two chunks), where its gradient
  output is idle, and the accumulator it carries between points as a memref.
-/
import proofs.«101176_j62654982914321_1_alg».proof.Proof.Gen.KernelIdeal.Launch
import proofs.«101176_j62654982914321_1_alg».proof.Proof.Gen.KernelIdeal.Skeleton
import proofs.«101176_j62654982914321_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
-- the core's buffer contents when a region is entered: every statement about a region is made at this parameter
variable (V : (c : Dev nD) → (b : Ref sig .tc) → Buf (Elt F) ((c : Thread nD τ).loc b))

/-- Window w's block at point t of the first region, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window w's block at point t of the second region. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of the first region holds its block at every point, fetched there or not, for any proof data whose
    array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 of the first region holds its block at every point, fetched there or not, for any proof data whose
    array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 of the first region holds its block at every point, fetched there or not, for any proof data whose
    array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 of the first region holds its block at every point, fetched there or not, for any proof data whose
    array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 of the first region holds its block at every point, fetched there or not, for any proof data whose
    array is the entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5 of the first region holds its block at every point, fetched there or not, for any proof data whose
    array is the entry contents and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6 of the first region holds its block at every point, fetched there or not, for any proof data whose
    array is the entry contents and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7 of the first region holds its block at every point, fetched there or not, for any proof data whose
    array is the entry contents and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 0 of the second region holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 of the second region holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 of the second region holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The first kernel's branch conditions over its grid -/

/-- "This is the first step of the chunk": the accumulator is reset. -/
abbrev cond0_0 (i : grid0.Coords) : Prop := (Scalar.cmpi .ne (Scalar.extui (Scalar.cmpi .eq (BitVec.ofNat 32 (i 1).val) 0#32)) 0#32) = 1#1
/-- It holds at the points 0 and 8 of the 16. -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last step of the chunk": the accumulator is written out. -/
abbrev cond0_1 (i : grid0.Coords) : Prop := k0_cond2 i = 1#1
/-- It holds at the points 7 and 15. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the first region's windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
/-- At a chunk's first step nothing is stored into the gradient output, and its block is not written back. -/
theorem idleAt0_9_A : ∀ t : Fin cfg0.N, cond0_0 (grid0.coords t) → ¬cond0_1 (grid0.coords t) → cfg0.idle 9 (grid0.coords t) = true := by decide +kernel
theorem noFlush0_9_A : ∀ t : Fin cfg0.N, cond0_0 (grid0.coords t) → ¬cond0_1 (grid0.coords t) → (cfg0.win 9).flush t = false := by decide +kernel
/-- The same at a middle step. -/
theorem idleAt0_9_B : ∀ t : Fin cfg0.N, ¬cond0_0 (grid0.coords t) → ¬cond0_1 (grid0.coords t) → cfg0.idle 9 (grid0.coords t) = true := by decide +kernel
theorem noFlush0_9_B : ∀ t : Fin cfg0.N, ¬cond0_0 (grid0.coords t) → ¬cond0_1 (grid0.coords t) → (cfg0.win 9).flush t = false := by decide +kernel
/-- At a chunk's last step the gradient output is stored. -/
theorem liveAt0_9_C : ∀ t : Fin cfg0.N, ¬cond0_0 (grid0.coords t) → cond0_1 (grid0.coords t) → cfg0.idle 9 (grid0.coords t) = false := by decide +kernel

/-! ## The memrefs the first kernel is called with -/

/-- One staging buffer of each output window of the first region, through which its contents are stated. -/
abbrev VO0_8 : View sig .tc .vmem S2048x512 .bf16 := (Memref.whole cc0_stg8_0 : Memref sig .tc .vmem S2048x512 .bf16).view
abbrev VO0_9 : View sig .tc .vmem S1x512x512 .f32 := (Memref.whole cc0_stg9_0 : Memref sig .tc .vmem S1x512x512 .f32).view
abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x512 .f32 := win0_9.stage (cfg0.slots t 9)
abbrev hs0_9 (t : Fin cfg0.N) : (ms0_9 t).IsWhole := hstage0_9 ((cfg0.slots t 9).cast nbuf0_9)
/-- The accumulator: a whole scoped buffer of the kernel's own, passed beside the windows. -/
abbrev scM0 : Memref sig .tc .vmem S512x512 .f32 := Memref.whole cc0_scratch0
abbrev VS0 : View sig .tc .vmem S512x512 .f32 := scM0.view

/-- The core's other scoped buffers that no window of the first region stages (the second region's staging buffers),
    each at some contents: they ride through the first region untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the region hands the kernel besides the windows: the accumulator at some contents, the other scoped buffers,
    the generator register at some state. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; try rfl

end Cert.KernelIdeal.Fr

end
-- ==== Proof.FrRunA.lean ====
/-
  The first kernel's body at the first step of a chunk (the accumulator is reset to zero, then added to; nothing is stored into the gradient output): run once on whole staging memrefs, the input
  windows' at given contents, the encoded-rows output's at anything; the stores each written buffer ends with are
  found by the run itself, as lists of pieces.
-/
import proofs.«101176_j62654982914321_1_alg».proof.Proof.FrShared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the encoded-rows output (L8), in the gradient output (L9) and in the accumulator (LS0)
    in this case, with the body's triple: from the inputs' memrefs at their contents the body runs to the continuation
    holding the inputs as they were and each written buffer with its pieces written. -/
noncomputable def kernelRun0_A (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : cond0_0 i) (hc1 : ¬cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) :
    Σ' (L8 : List (View.Piece (Elt F) S2048x512 .bf16)) (L9 : List (View.Piece (Elt F) S1x512x512 .f32)), { LS0 : List (View.Piece (Elt F) S512x512 .f32) //
      ∀ (xi9 : Vec F S1x512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xi9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0__encode_and_grad_kernel i arg2 harg2 arg3 harg3 arg4 harg4 arg5 harg5 arg6 harg6 arg7 harg7 arg8 harg8 arg9 harg9 arg10 harg10 arg11 harg11 arg12 harg12) K } := by
  refine ⟨?_, [], ?_, fun xi9 E K => ?run⟩
  case run =>
    simp only [cc0__encode_and_grad_kernel_eq_skeleton]; unfold cc0__encode_and_grad_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    iexists _; iexact HS0

end Cert.KernelIdeal.Fr

end
-- ==== Proof.FrRunB.lean ====
/-
  The first kernel's body at a middle step of a chunk (the accumulator the step before left is added to; nothing is stored into the gradient output): run once on whole staging memrefs, the input
  windows' at given contents, the encoded-rows output's at anything; the stores each written buffer ends with are
  found by the run itself, as lists of pieces.
-/
import proofs.«101176_j62654982914321_1_alg».proof.Proof.FrShared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the encoded-rows output (L8), in the gradient output (L9) and in the accumulator (LS0)
    in this case, with the body's triple: from the inputs' memrefs at their contents the body runs to the continuation
    holding the inputs as they were and each written buffer with its pieces written. -/
noncomputable def kernelRun0_B (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : ¬cond0_0 i) (hc1 : ¬cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (xs0 : Vec F S512x512 .f32) :
    Σ' (L8 : List (View.Piece (Elt F) S2048x512 .bf16)) (L9 : List (View.Piece (Elt F) S1x512x512 .f32)), { LS0 : List (View.Piece (Elt F) S512x512 .f32) //
      ∀ (xi9 : Vec F S1x512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0__encode_and_grad_kernel i arg2 harg2 arg3 harg3 arg4 harg4 arg5 harg5 arg6 harg6 arg7 harg7 arg8 harg8 arg9 harg9 arg10 harg10 arg11 harg11 arg12 harg12) K } := by
  refine ⟨?_, [], ?_, fun xi9 E K => ?run⟩
  case run =>
    simp only [cc0__encode_and_grad_kernel_eq_skeleton]; unfold cc0__encode_and_grad_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    iexists _; iexact HS0

end Cert.KernelIdeal.Fr

end
-- ==== Proof.FrRunC.lean ====
/-
  The first kernel's body at the last step of a chunk (the accumulator is added to and then copied whole into the gradient output): run once on whole staging memrefs, the input
  windows' at given contents, the encoded-rows output's at anything; the stores each written buffer ends with are
  found by the run itself, as lists of pieces.
-/
import proofs.«101176_j62654982914321_1_alg».proof.Proof.FrShared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the encoded-rows output (L8), in the gradient output (L9) and in the accumulator (LS0)
    in this case, with the body's triple: from the inputs' memrefs at their contents the body runs to the continuation
    holding the inputs as they were and each written buffer with its pieces written. -/
noncomputable def kernelRun0_C (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : ¬cond0_0 i) (hc1 : cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (xs0 : Vec F S512x512 .f32) :
    Σ' (L8 : List (View.Piece (Elt F) S2048x512 .bf16)) (L9 : List (View.Piece (Elt F) S1x512x512 .f32)), { LS0 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0__encode_and_grad_kernel i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__encode_and_grad_kernel_eq_skeleton]; unfold cc0__encode_and_grad_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    iexists _; iexact HS0

end Cert.KernelIdeal.Fr

end
-- ==== Proof.FrRegion0.lean ====
/-
  The first region (the encoder, the residual and the accumulated outer products) as pipeline proof data: what each
  case of the body leaves in the encoded-rows output, in the gradient output and in the accumulator, read back from the
  pieces its run found; what these hold after every grid point, by recursion on the point (the accumulator of a middle
  or last step is computed from what the step before left); the invariant carrying the accumulator from point to
  point; and the body obligation at every point.
-/
import proofs.«101176_j62654982914321_1_alg».proof.Proof.FrRunA
import proofs.«101176_j62654982914321_1_alg».proof.Proof.FrRunB
import proofs.«101176_j62654982914321_1_alg».proof.Proof.FrRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A: the encoded-rows output's pieces tile its buffer. -/
theorem cover0_A_8 (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : cond0_0 i) (hc1 : ¬cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (y : S2048x512.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).1 S2048x512.size (by sl_kernel_rfl) y
/-- Case A: what the body leaves in the encoded-rows output. -/
def out0_A_8 (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : cond0_0 i) (hc1 : ¬cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) : Vec F S2048x512 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).1)
/-- Case A: what the body leaves in the gradient output (nothing is stored: a placeholder nothing consults). -/
def out0_A_9 (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : cond0_0 i) (hc1 : ¬cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) : Vec F S1x512x512 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.1)
/-- Case A: the accumulator's pieces tile it. -/
theorem scover0_A (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : cond0_0 i) (hc1 : ¬cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (y : S512x512.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1 S512x512.size (by sl_kernel_rfl) y
/-- Case A: what the body leaves in the accumulator. -/
def sout0_A (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : cond0_0 i) (hc1 : ¬cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) : Vec F S512x512 .f32 :=
  VS0.read (Elt F) (VS0.writes (Elt F) VS0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1)

/-- Case B: the encoded-rows output's pieces tile its buffer. -/
theorem cover0_B_8 (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : ¬cond0_0 i) (hc1 : ¬cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (xs0 : Vec F S512x512 .f32) (y : S2048x512.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1 S2048x512.size (by sl_kernel_rfl) y
/-- Case B: what the body leaves in the encoded-rows output. -/
def out0_B_8 (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : ¬cond0_0 i) (hc1 : ¬cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (xs0 : Vec F S512x512 .f32) : Vec F S2048x512 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1)
/-- Case B: what the body leaves in the gradient output (nothing is stored: a placeholder nothing consults). -/
def out0_B_9 (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : ¬cond0_0 i) (hc1 : ¬cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (xs0 : Vec F S512x512 .f32) : Vec F S1x512x512 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1)
/-- Case B: the accumulator's pieces tile it. -/
theorem scover0_B (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : ¬cond0_0 i) (hc1 : ¬cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (xs0 : Vec F S512x512 .f32) (y : S512x512.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1 S512x512.size (by sl_kernel_rfl) y
/-- Case B: what the body leaves in the accumulator. -/
def sout0_B (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : ¬cond0_0 i) (hc1 : ¬cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (xs0 : Vec F S512x512 .f32) : Vec F S512x512 .f32 :=
  VS0.read (Elt F) (VS0.writes (Elt F) VS0.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1)

/-- Case C: the encoded-rows output's pieces tile its buffer. -/
theorem cover0_C_8 (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : ¬cond0_0 i) (hc1 : cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (xs0 : Vec F S512x512 .f32) (y : S2048x512.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1 S2048x512.size (by sl_kernel_rfl) y
/-- Case C: what the body leaves in the encoded-rows output. -/
def out0_C_8 (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : ¬cond0_0 i) (hc1 : cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (xs0 : Vec F S512x512 .f32) : Vec F S2048x512 .bf16 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1)
/-- Case C: the gradient output's pieces tile its buffer. -/
theorem cover0_C_9 (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : ¬cond0_0 i) (hc1 : cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (xs0 : Vec F S512x512 .f32) (y : S1x512x512.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1 S1x512x512.size (by sl_kernel_rfl) y
/-- Case C: what the body leaves in the gradient output. -/
def out0_C_9 (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : ¬cond0_0 i) (hc1 : cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (xs0 : Vec F S512x512 .f32) : Vec F S1x512x512 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1)
/-- Case C: the accumulator's pieces tile it. -/
theorem scover0_C (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : ¬cond0_0 i) (hc1 : cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (xs0 : Vec F S512x512 .f32) (y : S512x512.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1 S512x512.size (by sl_kernel_rfl) y
/-- Case C: what the body leaves in the accumulator. -/
def sout0_C (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : ¬cond0_0 i) (hc1 : cond0_1 i)
    (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (xs0 : Vec F S512x512 .f32) : Vec F S512x512 .f32 :=
  VS0.read (Elt F) (VS0.writes (Elt F) VS0.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1)

section Acc
variable (V : (c : Dev nD) → (b : Ref sig .tc) → Buf (Elt F) ((c : Thread nD τ).loc b))

/-- What the two output windows' staging buffers and the accumulator hold after the body at position n (in that order):
    the case the position is in (first, middle or last step of its chunk), run on the point's input blocks, a middle or
    last step over the accumulator the position before left. -/
def outsAt0 (c : Dev nD) : (n : ℕ) → n < cfg0.N → Vec F S2048x512 .bf16 × Vec F S1x512x512 .f32 × Vec F S512x512 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩))
  | n + 1, hn =>
    if h0 : (n + 1) % 8 = 0 then
      if h1 : (n + 1) % 8 = 7 then
        False.elim (by omega)
      else
        (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩))
    else
      if h1 : (n + 1) % 8 = 7 then
        (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2)
      else
        (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn)).2.2)

/-- At a chunk's first step. -/
theorem outsAt0_A (c : Dev nD) (t : Fin cfg0.N) (h0 : t.val % 8 = 0) (h1 : ¬t.val % 8 = 7) :
    outsAt0 V c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t), sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)) := by
  obtain ⟨n, hn⟩ := t
  cases n with
  | zero => exact rfl
  | succ n => exact (dif_pos h0).trans ((dif_neg h1).trans rfl)

/-- At a middle step: over the accumulator the step before left. -/
theorem outsAt0_B (c : Dev nD) (t : Fin cfg0.N) (h0 : ¬t.val % 8 = 0) (h1 : ¬t.val % 8 = 7) :
    outsAt0 V c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2, sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a chunk's last step: over the accumulator the step before left. -/
theorem outsAt0_C (c : Dev nD) (t : Fin cfg0.N) (h0 : ¬t.val % 8 = 0) (h1 : t.val % 8 = 7) :
    outsAt0 V c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2, sout0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point whatever the launch hands over; afterwards the
    accumulator at what the point before left, the other scoped buffers and the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2.2) ∗ others0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2.2) ∗ others0 c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2.2) ∗ others0 c) ∗ (∃ r, prngReg c r)) := by
  cases n with
  | zero => exact absurd rfl hz
  | succ n => rfl

/-- The first region's proof data on core c: the arrays as the region finds them; after the body at point t each
    input's buffer at its block, the outputs' at what the accumulation says; the invariant carrying the accumulator. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => (outsAt0 V c t.val t.isLt).1
    | ⟨9, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = (outsAt0 V c t.val t.isLt).1 := by dsimp only [dat0]
theorem after0_9 (c : Dev nD) (t : Fin cfg0.N) : (dat0 V c).after 9 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 8000000 in
/-- The body at any point: the inputs' memrefs hold their blocks; the closed forms say which case the point is in; the
    invariant hands the body the accumulator at what the point before left (at anything at the very first point) and takes
    it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  rw [show (dat0 V c).leavesExact 8 t = owns (c : Thread nD τ) (ms0_8 t) fullShare ((dat0 V c).after 8 t) from by
    unfold Dat.leavesExact; rw [liveAt0_8 t], after0_8]
  by_cases h0 : t.val % 8 = 0
  · have h1 : ¬t.val % 8 = 7 := by omega
    rw [Dat.leavesExact_idle (dat0 V c) 9 t (idleAt0_9_A t ((hcond0_0 t).mpr h0) (fun h => h1 ((hcond0_1 t).mp h))) (noFlush0_9_A t ((hcond0_0 t).mpr h0) (fun h => h1 ((hcond0_1 t).mp h)))]
    rw [outsAt0_A V c t h0 h1]
    unfold out0_A_8 sout0_A; (try dsimp only)
    by_cases hz : t.val = 0
    · rw [PhiS_castSucc V c t, PhiS_zero V c _ _ hz, PhiA0_eq]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [HS0]; · iexact HS0
      iintro ⟨H0, H1, H2, H3, H4, H5, H6, H7, ⟨%e8, H8⟩, H9, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t))
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t))
      iexists _; iexact H9
    · rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [HS0]; · iexists _; iexact HS0
      iintro ⟨H0, H1, H2, H3, H4, H5, H6, H7, ⟨%e8, H8⟩, H9, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t))
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t))
      iexists _; iexact H9
  · have hz : t.val ≠ 0 := by omega
    by_cases h1 : t.val % 8 = 7
    · rw [show (dat0 V c).leavesExact 9 t = owns (c : Thread nD τ) (ms0_9 t) fullShare ((dat0 V c).after 9 t) from by
        unfold Dat.leavesExact; rw [liveAt0_9_C t (fun h => h0 ((hcond0_0 t).mp h)) ((hcond0_1 t).mpr h1)], after0_9]
      rw [outsAt0_C V c t h0 h1]
      unfold out0_C_8 out0_C_9 sout0_C; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      iintro ⟨H0, H1, H2, H3, H4, H5, H6, H7, ⟨%e8, H8⟩, ⟨%e9, H9⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) _)
      unfold owns; iexists _; isplitr
      swap; · iexact H9
      ipureintro; exact View.read_writes_of_cover _ _ _ _ _ (cover0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) _)
    · rw [Dat.leavesExact_idle (dat0 V c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      rw [outsAt0_B V c t h0 h1]
      unfold out0_B_8 sout0_B; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [HS0]; · iexact HS0
      iintro ⟨H0, H1, H2, H3, H4, H5, H6, H7, ⟨%e8, H8⟩, H9, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) _)
      iexists _; iexact H9

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the same back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 16 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hoth⟩, Hg⟩
  isplitl [HS0 Hoth]
  · isplitl [HS0]
    · iexists _; iexact HS0
    iexact Hoth
  iexact Hg

end Acc

end Cert.KernelIdeal.Fr

end
-- ==== Proof.FrRun1.lean ====
/-
  The second kernel's body (the encoded rows of one tile times the transposed updated matrix, plus the bias) run once
  on whole staging memrefs: the inputs' at given contents, the output's at anything; the store the output ends with is
  found by the run itself.
-/
import proofs.«101176_j62654982914321_1_alg».proof.Proof.FrShared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One staging buffer of the second region's output window, through which its contents are stated. -/
abbrev VO1_3 : View sig .tc .vmem S4096x512 .f32 := (Memref.whole cc1_stg3_0 : Memref sig .tc .vmem S4096x512 .f32).view
abbrev ms1_0 (t : Fin cfg1.N) : Memref sig .tc .vmem S4096x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x512 .f32 := win1_3.stage (cfg1.slots t 3)
abbrev hs1_3 (t : Fin cfg1.N) : (ms1_3 t).IsWhole := hstage1_3 ((cfg1.slots t 3).cast nbuf1_3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

set_option maxHeartbeats 4000000 in
/-- The pieces the body leaves in the output's staging memref, with the body's triple. -/
noncomputable def kernelRun1 (c : Dev nD) (i : grid1.Coords) (arg1 : Memref sig .tc .vmem S4096x512 .bf16) (harg1 : arg1.IsWhole) (arg2 : Memref sig .tc .vmem S512x512 .f32) (harg2 : arg2.IsWhole) (arg3 : Memref sig .tc .vmem S512 .f32) (harg3 : arg3.IsWhole) (arg4 : Memref sig .tc .vmem S4096x512 .f32) (harg4 : arg4.IsWhole)
    (x0 : Vec F S4096x512 .bf16) (x1 : Vec F S512x512 .f32) (x2 : Vec F S512 .f32) :
    { L3 : List (View.Piece (Elt F) S4096x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc1__final_kernel i arg1 harg1 arg2 harg2 arg3 harg3 arg4 harg4) K } := by
  refine ⟨?_, fun E K => ?run⟩
  case run =>
    simp only [cc1__final_kernel_eq_skeleton]; unfold cc1__final_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.Fr

end
-- ==== Proof.FrRegion1.lean ====
/-
  The second region (the encoded rows read through the updated matrix) as pipeline proof data: what the body leaves in
  its output window's buffer, read back from the piece its run found; the proof data with the class invariant (the
  kernel keeps nothing between points); and the body obligation at every point.
-/
import proofs.«101176_j62654982914321_1_alg».proof.Proof.FrRun1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output's pieces tile its buffer. -/
theorem cover1_3 (c : Dev nD) (i : grid1.Coords) (arg1 : Memref sig .tc .vmem S4096x512 .bf16) (harg1 : arg1.IsWhole) (arg2 : Memref sig .tc .vmem S512x512 .f32) (harg2 : arg2.IsWhole) (arg3 : Memref sig .tc .vmem S512 .f32) (harg3 : arg3.IsWhole) (arg4 : Memref sig .tc .vmem S4096x512 .f32) (harg4 : arg4.IsWhole)
    (x0 : Vec F S4096x512 .bf16) (x1 : Vec F S512x512 .f32) (x2 : Vec F S512 .f32) (y : S4096x512.Idx) :
    ∃ pc ∈ (kernelRun1 c i arg1 harg1 arg2 harg2 arg3 harg3 arg4 harg4 x0 x1 x2).1, y ∈ pc.1.set :=
  View.cover_of_tiledL (kernelRun1 c i arg1 harg1 arg2 harg2 arg3 harg3 arg4 harg4 x0 x1 x2).1 S4096x512.size (by sl_kernel_rfl) y
/-- What the body leaves in the output's staging buffer. -/
def out1_3 (c : Dev nD) (i : grid1.Coords) (arg1 : Memref sig .tc .vmem S4096x512 .bf16) (harg1 : arg1.IsWhole) (arg2 : Memref sig .tc .vmem S512x512 .f32) (harg2 : arg2.IsWhole) (arg3 : Memref sig .tc .vmem S512 .f32) (harg3 : arg3.IsWhole) (arg4 : Memref sig .tc .vmem S4096x512 .f32) (harg4 : arg4.IsWhole)
    (x0 : Vec F S4096x512 .bf16) (x1 : Vec F S512x512 .f32) (x2 : Vec F S512 .f32) : Vec F S4096x512 .f32 :=
  VO1_3.read (Elt F) (VO1_3.writes (Elt F) VO1_3.junk (kernelRun1 c i arg1 harg1 arg2 harg2 arg3 harg3 arg4 harg4 x0 x1 x2).1)

section Data
variable (V : (c : Dev nD) → (b : Ref sig .tc) → Buf (Elt F) ((c : Thread nD τ).loc b))

/-- The second region's proof data on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point: the inputs' memrefs hold their blocks, so the run applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  unfold out1_3; (try dsimp only)
  iintro ⟨HΦ, Ho, ⟨%d0, H0⟩, ⟨%d1, H1⟩, ⟨%d2, H2⟩, ⟨%d3, H3⟩⟩
  iapply ((kernelRun1 c (grid1.coords t) (ms1_0 t) (hs1_0 t) (ms1_1 t) (hs1_1 t) (ms1_2 t) (hs1_2 t) (ms1_3 t) (hs1_3 t) (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_3 c (grid1.coords t) (ms1_0 t) (hs1_0 t) (ms1_1 t) (hs1_1 t) (ms1_2 t) (hs1_2 t) (ms1_3 t) (hs1_3 t) (iblk1 V c 0 t) (iblk1 V c 1 t) (iblk1 V c 2 t))

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Data

end Cert.KernelIdeal.Fr

end
-- ==== Proof.FrMain.lean ====
/-
  The whole program's run: the buffers' contents at every boundary between the first region, the host operations that
  build the updated matrix, and the second region, as a fold from the launch memory; each argument array read back
  through the fold to its launch contents; the two regions as segments; and the run itself: every weakly fair execution
  terminates, nothing faults, and every unscoped buffer ends at the last boundary's contents.
-/
import proofs.«101176_j62654982914321_1_alg».proof.Proof.FrRegion0
import proofs.«101176_j62654982914321_1_alg».proof.Proof.FrRegion1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operations (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := (W1_arr m ρ c 3).trans (((dat0 (V0 m ρ) c).arrAt_in 3 rfl _).trans (A_eq0 (V0 m ρ) c 3))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := (W1_arr m ρ c 4).trans (((dat0 (V0 m ρ) c).arrAt_in 4 rfl _).trans (A_eq0 (V0 m ρ) c 4))
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := (W1_arr m ρ c 5).trans (((dat0 (V0 m ρ) c).arrAt_in 5 rfl _).trans (A_eq0 (V0 m ρ) c 5))
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := (W1_arr m ρ c 6).trans (((dat0 (V0 m ρ) c).arrAt_in 6 rfl _).trans (A_eq0 (V0 m ρ) c 6))
    _ = m ((c : Thread nD τ).loc main_arg6) := rfl
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := (W3_arr m ρ c 2).trans (((dat1 (V2 m ρ) c).arrAt_in 2 rfl _).trans (A_eq1 (V2 m ρ) c 2))
    _ = W1 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := (W1_arr m ρ c 7).trans (((dat0 (V0 m ρ) c).arrAt_in 7 rfl _).trans (A_eq0 (V0 m ρ) c 7))
    _ = m ((c : Thread nD τ).loc main_arg7) := rfl
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := W1_of_ne m ρ c main_arg8 (by decide)
    _ = m ((c : Thread nD τ).loc main_arg8) := rfl
theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := W1_of_ne m ρ c main_arg9 (by decide)
    _ = m ((c : Thread nD τ).loc main_arg9) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

-- the library's lemmas are stated over the pinned configuration: unifying with it takes unfolding plain definitions in a metavariable's type
set_option backward.isDefEq.respectTransparency.types false in
/-- Region 0 over the thread state "every unscoped buffer at the boundary's contents, the generator register at some
    state, nothing owed": its arrays split out of the unscoped buffers at entry and put back at what the pipeline leaves
    at exit; the generator register into the invariant and out; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 0).pre c (fun _ => fullShare) (adm (F := F) 0).1 ∗ Pipeline.scopedRest spec0 c) : sProp 𝕄) ⊢ Pipeline.ΦA spec0 c := by
      unfold Pipeline.ΦA
      iintro ⟨Hp, -, Hr⟩
      isplitl [Hr]; · iexact Hr
      iexact Hp
    exact h1.trans (hin0 (V0 m ρ) c)
  hout c := by
    rw [Pipeline.ownSems0_none]
    have h1 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (V0 m ρ) c).trans h1
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration: unifying with it takes unfolding plain definitions in a metavariable's type
set_option backward.isDefEq.respectTransparency.types false in
/-- Region 1 over the thread state "every unscoped buffer at the boundary's contents, the generator register at some
    state, nothing owed": its arrays split out of the unscoped buffers at entry and put back at what the pipeline leaves
    at exit; the generator register into the invariant and out; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c),
    (h c _ (mem_uc main_arg9 (by decide))).trans (W3_main_arg9 m ρ c)⟩) (run_all m ρ)

end Cert.KernelIdeal.Fr

end
-- ==== Proof.EncoderPieces.lean ====
/-
  What each case of the first kernel's body leaves in its buffers, as a value.

  Every store of the body covers its whole buffer, and every load reads a whole buffer, so what a
  buffer ends holding is the payload of the last store into it, as a function of the contents the
  inputs' buffers held: the encoded rows of the tile in every case; in the accumulator, what it held
  (zero at a chunk's first step) plus the tile's summed outer products; and, at a chunk's last step,
  the accumulator under a leading unit axis in the gradient output.
-/
import proofs.«101176_j62654982914321_1_alg».proof.Proof.FrRegion0
import Idealize.ShloMosaic.Lib.Pipeline.Value

set_option maxRecDepth 16384

noncomputable section

namespace Cert.KernelIdeal.Val0

open Cert.KernelIdeal Cert.KernelIdeal.Gen Cert.KernelIdeal.Fr
open Idealize.ShloMosaic Idealize.ShloMosaic.TcCoe Idealize.ShloMosaic.Tactic
open Idealize.SL Idealize.SL.Sem

variable {F : FTy → Type} [FloatOps F]

/-- The zero offsets of a whole-buffer rectangle, on one, two and three axes. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## A chunk's first step -/

/-- The encoded-rows output holds the tile's encoded rows. -/
theorem out8_A (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : cond0_0 i) (hc1 : ¬cond0_1 i) (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) :
    out0_A_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 = k0_pay5 x0 x2 x3 x4 x5 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  rw [View.canon_unit_zero hz2]
  simp only [View.readAt_eq_ld, harg2.read_unread, harg3.read_unread, harg4.read_unread, harg5.read_unread, harg6.read_unread, harg7.read_unread, harg8.read_unread, harg9.read_unread, harg12.read_unread, View.ld_unit_zero (S := S2048x512) hz2, View.ld_unit_zero (S := S512x512) hz2, View.ld_unit_zero (S := S512) hz1]

/-- The accumulator is set to zero, read back, and the tile's summed outer products are added. -/
theorem sout_A (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : cond0_0 i) (hc1 : ¬cond0_1 i) (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) :
    sout0_A c i arg2 harg2 arg3 harg3 arg4 harg4 arg5 harg5 arg6 harg6 arg7 harg7 arg8 harg8 arg9 harg9 arg10 harg10 arg11 harg11 arg12 harg12 hc0 hc1 x0 x1 x2 x3 x4 x5 x6 x7
      = k0_pay1 (k0_pay6 x0 x2 x3 x4 x5) (k0_pay7 x0 x2 x3 x4 x5 x6) (k0_pay8 x7) x1 k0_pay3 := by
  unfold sout0_A
  rw [View.read_writes_eq_canon _ _ _ (scover0_A c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  rw [View.canon_cons_unit_zero (S := S512x512) hz2, View.readCov_unit_zero (S := S512x512) _ hz2]
  simp only [View.readAt_eq_ld, harg2.read_unread, harg3.read_unread, harg4.read_unread, harg5.read_unread, harg6.read_unread, harg7.read_unread, harg8.read_unread, harg9.read_unread, harg12.read_unread, View.ld_unit_zero (S := S2048x512) hz2, View.ld_unit_zero (S := S512x512) hz2, View.ld_unit_zero (S := S512) hz1]

/-! ## A middle step -/

/-- The encoded-rows output holds the tile's encoded rows. -/
theorem out8_B (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : ¬cond0_0 i) (hc1 : ¬cond0_1 i) (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (xs0 : Vec F S512x512 .f32) :
    out0_B_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 = k0_pay5 x0 x2 x3 x4 x5 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_B
  dsimp only
  rw [View.canon_unit_zero hz2]
  simp only [View.readAt_eq_ld, harg2.read_unread, harg3.read_unread, harg4.read_unread, harg5.read_unread, harg6.read_unread, harg7.read_unread, harg8.read_unread, harg9.read_unread, harg12.read_unread, View.ld_unit_zero (S := S2048x512) hz2, View.ld_unit_zero (S := S512x512) hz2, View.ld_unit_zero (S := S512) hz1]

/-- The accumulator holds what it held plus the tile's summed outer products. -/
theorem sout_B (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : ¬cond0_0 i) (hc1 : ¬cond0_1 i) (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (xs0 : Vec F S512x512 .f32) :
    sout0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0
      = k0_pay1 (k0_pay6 x0 x2 x3 x4 x5) (k0_pay7 x0 x2 x3 x4 x5 x6) (k0_pay8 x7) x1 xs0 := by
  unfold sout0_B
  rw [View.read_writes_eq_canon _ _ _ (scover0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg12.read_unread, View.ld_unit_zero (S := S2048x512) hz2, View.ld_unit_zero (S := S512x512) hz2, View.ld_unit_zero (S := S512) hz1]

/-! ## A chunk's last step -/

/-- The encoded-rows output holds the tile's encoded rows. -/
theorem out8_C (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : ¬cond0_0 i) (hc1 : cond0_1 i) (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (xs0 : Vec F S512x512 .f32) :
    out0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 = k0_pay5 x0 x2 x3 x4 x5 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_C
  dsimp only
  rw [View.canon_unit_zero hz2]
  simp only [View.readAt_eq_ld, harg2.read_unread, harg3.read_unread, harg4.read_unread, harg5.read_unread, harg6.read_unread, harg7.read_unread, harg8.read_unread, harg9.read_unread, harg12.read_unread, View.ld_unit_zero (S := S2048x512) hz2, View.ld_unit_zero (S := S512x512) hz2, View.ld_unit_zero (S := S512) hz1]

/-- The accumulator holds what it held plus the tile's summed outer products. -/
theorem sout_C (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : ¬cond0_0 i) (hc1 : cond0_1 i) (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (xs0 : Vec F S512x512 .f32) :
    sout0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0
      = k0_pay1 (k0_pay6 x0 x2 x3 x4 x5) (k0_pay7 x0 x2 x3 x4 x5 x6) (k0_pay8 x7) x1 xs0 := by
  unfold sout0_C
  rw [View.read_writes_eq_canon _ _ _ (scover0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg12.read_unread, View.ld_unit_zero (S := S2048x512) hz2, View.ld_unit_zero (S := S512x512) hz2, View.ld_unit_zero (S := S512) hz1]

/-- The gradient output holds the accumulator as this step leaves it, under a leading unit axis. -/
theorem out9_C (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S2048x512 .bf16) (harg10 : arg10.IsWhole) (arg11 : Memref sig .tc .vmem S1x512x512 .f32) (harg11 : arg11.IsWhole) (arg12 : Memref sig .tc .vmem S512x512 .f32) (harg12 : arg12.IsWhole) (hc0 : ¬cond0_0 i) (hc1 : cond0_1 i) (x0 : Vec F S2048x512 .f32) (x1 : Vec F S2048x512 .f32) (x2 : Vec F S512x512 .f32) (x3 : Vec F S512 .f32) (x4 : Vec F S512x512 .f32) (x5 : Vec F S512 .f32) (x6 : Vec F S512x512 .f32) (x7 : Vec F S512 .f32) (xs0 : Vec F S512x512 .f32) :
    out0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0
      = k0_pay2 (k0_pay1 (k0_pay6 x0 x2 x3 x4 x5) (k0_pay7 x0 x2 x3 x4 x5 x6) (k0_pay8 x7) x1 xs0) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_C
  dsimp only
  sl_unfold_words
  rw [View.canon_unit_zero (S := S1x512x512) hz3, View.readCov_unit_zero (S := S512x512) _ hz2]
  simp only [View.readAt_eq_ld, harg2.read_unread, harg3.read_unread, harg4.read_unread, harg5.read_unread, harg6.read_unread, harg7.read_unread, harg8.read_unread, harg9.read_unread, harg12.read_unread, View.ld_unit_zero (S := S2048x512) hz2, View.ld_unit_zero (S := S512x512) hz2, View.ld_unit_zero (S := S512) hz1]

end Cert.KernelIdeal.Val0

end
-- ==== Proof.EncoderBlocks.lean ====
/-
  Where each window's block sits in its array, and what the first region's buffers hold after each grid
  point as payloads of the point's blocks.

  The grid has 16 = 2 × 8 points; point t works on tile t, rows t·2048 … t·2048 + 2047 of the batch. The
  keys and the targets are cut into these tiles; the weights and biases are resident (their one block is the
  whole array); the encoded rows are written back tile by tile, and the gradient output has one slab per
  chunk of 8 points. After a point the encoded-rows buffer holds the tile's encoded rows; the accumulator
  holds zero (at a chunk's first step) or what the step before left, plus the tile's summed outer products;
  at a chunk's last step the gradient buffer holds the accumulator under a leading unit axis.
-/
import proofs.«101176_j62654982914321_1_alg».proof.Proof.EncoderPieces
import Idealize.ShloMosaic.Lib.Pipeline.Value
import Idealize.ShloMosaic.Lib.ValueIdx

set_option maxRecDepth 16384

noncomputable section

open scoped BigOperators

namespace Cert.KernelIdeal.Val0

open Cert.KernelIdeal Cert.KernelIdeal.Gen Cert.KernelIdeal.Fr
open Idealize.ShloMosaic Idealize.ShloMosaic.TcCoe Idealize.ShloMosaic.Tactic
open Idealize.SL Idealize.SL.Sem
open Idealize.ShloMosaic.Pipeline (Dat Cfg Window)

open Idealize.ShloMosaic.ValueIdx

variable {F : FTy → Type} [FloatOps F]

/-! ## Where each window's block sits in its array -/

/-- Row r of tile t is row t·2048 + r of the batch. -/
def rowOf (t : Fin cfg0.N) (s : Fin 2048) : Fin 32768 :=
  ⟨t.val * 2048 + s.val, by have h := t.isLt; have hN : cfg0.N = 16 := N_0; omega⟩

theorem rowOf_val (t : Fin cfg0.N) (s : Fin 2048) : (rowOf t s).val = t.val * 2048 + s.val := rfl

/-- The block numbers of the windows, decided over the 16 points: the row-blocked windows are at block t,
    the resident ones at block 0, the gradient output at the chunk's number. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 1) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 1) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 1) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 3) = t.val / 8 ∧ win0_9.index t (1 : Fin 3) = 0
    ∧ win0_9.index t (2 : Fin 3) = 0 :=
  (by decide +kernel : ∀ t : Fin grid0.N, _)

section Blocks
variable (V : (c : Dev nD) → (b : Ref sig .tc) → Buf (Elt F) ((c : Thread nD τ).loc b))

/-- A row-blocked input's block at point t holds rows t·2048 … of its array. -/
theorem blk0_apply (c : Dev nD) (t : Fin cfg0.N) (s : Fin 2048) (k : Fin 512) :
    iblk0 V c 0 t (ix2 s k) = V c main_arg0 (ix2 (rowOf t s) k) := by
  unfold iblk0
  rw [View.read_apply]
  show V c main_arg0 _ = V c main_arg0 _
  refine congrArg (V c main_arg0) (funext fun a => Fin.ext ?_)
  match a with
  | ⟨0, _⟩ => show win0_0.index t (0 : Fin 2) * 2048 + 1 * s.val = t.val * 2048 + s.val; rw [(idx0 t).1]; omega
  | ⟨1, _⟩ => show win0_0.index t (1 : Fin 2) * 512 + 1 * k.val = k.val; rw [(idx0 t).2]; omega

/-- A row-blocked input's block at point t holds rows t·2048 … of its array. -/
theorem blk1_apply (c : Dev nD) (t : Fin cfg0.N) (s : Fin 2048) (k : Fin 512) :
    iblk0 V c 1 t (ix2 s k) = V c main_arg1 (ix2 (rowOf t s) k) := by
  unfold iblk0
  rw [View.read_apply]
  show V c main_arg1 _ = V c main_arg1 _
  refine congrArg (V c main_arg1) (funext fun a => Fin.ext ?_)
  match a with
  | ⟨0, _⟩ => show win0_1.index t (0 : Fin 2) * 2048 + 1 * s.val = t.val * 2048 + s.val; rw [(idx1 t).1]; omega
  | ⟨1, _⟩ => show win0_1.index t (1 : Fin 2) * 512 + 1 * k.val = k.val; rw [(idx1 t).2]; omega

/-- A resident input's block is its whole array, at every point. -/
theorem blk2_eq (c : Dev nD) (t : Fin cfg0.N) : iblk0 V c 2 t = V c main_arg2 := by
  funext y
  unfold iblk0
  rw [View.read_apply]
  show V c main_arg2 _ = V c main_arg2 y
  refine congrArg (V c main_arg2) (funext fun a => Fin.ext ?_)
  match a with
  | ⟨0, _⟩ => show win0_2.index t (0 : Fin 2) * 512 + 1 * (y 0).val = (y 0).val; rw [(idx2 t).1]; omega
  | ⟨1, _⟩ => show win0_2.index t (1 : Fin 2) * 512 + 1 * (y 1).val = (y 1).val; rw [(idx2 t).2]; omega

/-- A resident input's block is its whole array, at every point. -/
theorem blk3_eq (c : Dev nD) (t : Fin cfg0.N) : iblk0 V c 3 t = V c main_arg3 := by
  funext y
  unfold iblk0
  rw [View.read_apply]
  show V c main_arg3 _ = V c main_arg3 y
  refine congrArg (V c main_arg3) (funext fun a => Fin.ext ?_)
  match a with
  | ⟨0, _⟩ => show win0_3.index t (0 : Fin 1) * 512 + 1 * (y 0).val = (y 0).val; rw [idx3 t]; omega

/-- A resident input's block is its whole array, at every point. -/
theorem blk4_eq (c : Dev nD) (t : Fin cfg0.N) : iblk0 V c 4 t = V c main_arg4 := by
  funext y
  unfold iblk0
  rw [View.read_apply]
  show V c main_arg4 _ = V c main_arg4 y
  refine congrArg (V c main_arg4) (funext fun a => Fin.ext ?_)
  match a with
  | ⟨0, _⟩ => show win0_4.index t (0 : Fin 2) * 512 + 1 * (y 0).val = (y 0).val; rw [(idx4 t).1]; omega
  | ⟨1, _⟩ => show win0_4.index t (1 : Fin 2) * 512 + 1 * (y 1).val = (y 1).val; rw [(idx4 t).2]; omega

/-- A resident input's block is its whole array, at every point. -/
theorem blk5_eq (c : Dev nD) (t : Fin cfg0.N) : iblk0 V c 5 t = V c main_arg5 := by
  funext y
  unfold iblk0
  rw [View.read_apply]
  show V c main_arg5 _ = V c main_arg5 y
  refine congrArg (V c main_arg5) (funext fun a => Fin.ext ?_)
  match a with
  | ⟨0, _⟩ => show win0_5.index t (0 : Fin 1) * 512 + 1 * (y 0).val = (y 0).val; rw [idx5 t]; omega

/-- A resident input's block is its whole array, at every point. -/
theorem blk6_eq (c : Dev nD) (t : Fin cfg0.N) : iblk0 V c 6 t = V c main_arg6 := by
  funext y
  unfold iblk0
  rw [View.read_apply]
  show V c main_arg6 _ = V c main_arg6 y
  refine congrArg (V c main_arg6) (funext fun a => Fin.ext ?_)
  match a with
  | ⟨0, _⟩ => show win0_6.index t (0 : Fin 2) * 512 + 1 * (y 0).val = (y 0).val; rw [(idx6 t).1]; omega
  | ⟨1, _⟩ => show win0_6.index t (1 : Fin 2) * 512 + 1 * (y 1).val = (y 1).val; rw [(idx6 t).2]; omega

/-- A resident input's block is its whole array, at every point. -/
theorem blk7_eq (c : Dev nD) (t : Fin cfg0.N) : iblk0 V c 7 t = V c main_arg7 := by
  funext y
  unfold iblk0
  rw [View.read_apply]
  show V c main_arg7 _ = V c main_arg7 y
  refine congrArg (V c main_arg7) (funext fun a => Fin.ext ?_)
  match a with
  | ⟨0, _⟩ => show win0_7.index t (0 : Fin 1) * 512 + 1 * (y 0).val = (y 0).val; rw [idx7 t]; omega

end Blocks

/-! ## What the buffers hold after each point, as payloads of the point's blocks -/

section Outs
variable (V : (c : Dev nD) → (b : Ref sig .tc) → Buf (Elt F) ((c : Thread nD τ).loc b))

set_option maxHeartbeats 2000000 in
/-- After every point the encoded-rows buffer holds the encoded rows of the point's tile. -/
theorem enc_after (c : Dev nD) (t : Fin cfg0.N) :
    (outsAt0 V c t.val t.isLt).1
      = k0_pay5 (iblk0 V c 0 t) (iblk0 V c 2 t) (iblk0 V c 3 t) (iblk0 V c 4 t) (iblk0 V c 5 t) := by
  by_cases h0 : t.val % 8 = 0
  · have h1 : ¬t.val % 8 = 7 := by omega
    rw [outsAt0_A V c t h0 h1]
    dsimp only
    exact out8_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)
  · by_cases h1 : t.val % 8 = 7
    · rw [outsAt0_C V c t h0 h1]
      dsimp only
      exact out8_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2
    · rw [outsAt0_B V c t h0 h1]
      dsimp only
      exact out8_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2

set_option maxHeartbeats 2000000 in
/-- After a chunk's first point the accumulator holds zero plus the tile's summed outer products. -/
theorem acc_first (c : Dev nD) (t : Fin cfg0.N) (h0 : t.val % 8 = 0) :
    (outsAt0 V c t.val t.isLt).2.2 = k0_pay1 (k0_pay6 (iblk0 V c 0 t) (iblk0 V c 2 t) (iblk0 V c 3 t) (iblk0 V c 4 t) (iblk0 V c 5 t)) (k0_pay7 (iblk0 V c 0 t) (iblk0 V c 2 t) (iblk0 V c 3 t) (iblk0 V c 4 t) (iblk0 V c 5 t) (iblk0 V c 6 t)) (k0_pay8 (iblk0 V c 7 t)) (iblk0 V c 1 t) k0_pay3 := by
  have h1 : ¬t.val % 8 = 7 := by omega
  rw [outsAt0_A V c t h0 h1]
  dsimp only
  exact sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)

set_option maxHeartbeats 2000000 in
/-- After a later point it holds what the point before left plus the tile's summed outer products. -/
theorem acc_next (c : Dev nD) (t : Fin cfg0.N) (h0 : ¬t.val % 8 = 0) :
    (outsAt0 V c t.val t.isLt).2.2 = k0_pay1 (k0_pay6 (iblk0 V c 0 t) (iblk0 V c 2 t) (iblk0 V c 3 t) (iblk0 V c 4 t) (iblk0 V c 5 t)) (k0_pay7 (iblk0 V c 0 t) (iblk0 V c 2 t) (iblk0 V c 3 t) (iblk0 V c 4 t) (iblk0 V c 5 t) (iblk0 V c 6 t)) (k0_pay8 (iblk0 V c 7 t)) (iblk0 V c 1 t) (outsAt0 V c (t.val - 1) (Nat.lt_of_le_of_lt (Nat.sub_le _ _) t.isLt)).2.2 := by
  by_cases h1 : t.val % 8 = 7
  · rw [outsAt0_C V c t h0 h1]
    dsimp only
    exact sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2
  · rw [outsAt0_B V c t h0 h1]
    dsimp only
    exact sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2

set_option maxHeartbeats 2000000 in
/-- After a chunk's last point the gradient buffer holds the accumulator under a leading unit axis. -/
theorem grad_last (c : Dev nD) (t : Fin cfg0.N) (h1 : t.val % 8 = 7) :
    (outsAt0 V c t.val t.isLt).2.1 = k0_pay2 ((outsAt0 V c t.val t.isLt).2.2) := by
  have h0 : ¬t.val % 8 = 0 := by omega
  rw [outsAt0_C V c t h0 h1]
  dsimp only
  exact (out9_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2).trans
    (congrArg (k0_pay2 (F := F)) (sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2).symm)

end Outs

end Cert.KernelIdeal.Val0

end
-- ==== Proof.Spec.lean ====
/-
  The mathematics both programs compute, over the extended reals, index by index.

  A two-layer encoder  h = relu(relu(x·W1ᵀ + b1)·W2ᵀ + b2)  of the batch rows, a linear memory read
  pred = h·Wmᵀ + bm, its residual against the targets, the summed outer products  Σ_b resid[b,i]·h[b,j]
  (the gradient of the squared error with respect to Wm, before scaling), the updated memory matrix
  (1 − gate)·Wm + rate·(2⁻²³ · Σ_b …), and the memory read again with the updated matrix.
  Everything is stated over literal extents and curried coordinates, so that a row index is a Fin 32768
  and a feature index a Fin 512 from the first line on.
-/
import Idealize.ShloMosaic.PureOps.Ideal
import Idealize.ShloMosaic.Lib.ValueIdx

noncomputable section

open scoped BigOperators

namespace Cert.NeuralMemory

open Idealize.ShloMosaic Idealize.ShloMosaic.ValueIdx

/-- A rank-2 array of extended reals over literal extents. -/
abbrev Mat (a b : Nat) : Type := (⟨2, ![a, b]⟩ : Shape).Idx → EReal
/-- A rank-1 array of extended reals over a literal extent. -/
abbrev Row (a : Nat) : Type := (⟨1, ![a]⟩ : Shape).Idx → EReal

/-- A rank-2 array read by its two coordinates. -/
def cur2 {a b : Nat} (A : Mat a b) (r : Fin a) (k : Fin b) : EReal := A (ix2 r k)
/-- A rank-1 array read by its coordinate. -/
def cur1 {a : Nat} (A : Row a) (k : Fin a) : EReal := A (ix1 k)

/-- The float word of 1.0. -/
abbrev oneW : EReal := Ideal.ofBits .f32 0x3F800000#32
/-- The float word of 2⁻²³ (two over the number of residual entries, 32768·512 = 2²⁴). -/
abbrev scaleW : EReal := Ideal.ofBits .f32 0x34000000#32

/-- One dense layer at row r, output feature j: the row of x against row j of W, plus the bias. -/
def affine {n : Nat} (x : Fin n → Fin 512 → EReal) (W : Fin 512 → Fin 512 → EReal) (b : Fin 512 → EReal)
    (r : Fin n) (j : Fin 512) : EReal :=
  (∑ k : Fin 512, x r k * W j k) + b j

section

variable (x v : Mat 32768 512) (W1 : Mat 512 512) (b1 : Row 512) (W2 : Mat 512 512) (b2 : Row 512)
  (Wm : Mat 512 512) (bm : Row 512) (gate rate : Row 1)

/-- The first hidden layer. -/
def enc1 (r : Fin 32768) (j : Fin 512) : EReal := max (affine (cur2 x) (cur2 W1) (cur1 b1) r j) 0
/-- The encoded keys h. -/
def enc2 (r : Fin 32768) (j : Fin 512) : EReal := max (affine (enc1 x W1 b1) (cur2 W2) (cur1 b2) r j) 0
/-- The residual of the memory's prediction against the targets. -/
def resid (r : Fin 32768) (j : Fin 512) : EReal :=
  affine (enc2 x W1 b1 W2 b2) (cur2 Wm) (cur1 bm) r j - cur2 v r j
/-- The summed outer products over the whole batch: entry (i, j) of residᵀ · h. -/
def gradSum (i j : Fin 512) : EReal :=
  ∑ b : Fin 32768, resid x v W1 b1 W2 b2 Wm bm b i * enc2 x W1 b1 W2 b2 b j
/-- The updated memory matrix. -/
def newW (i j : Fin 512) : EReal :=
  (oneW - gate (ix1 0)) * cur2 Wm i j + rate (ix1 0) * (scaleW * gradSum x v W1 b1 W2 b2 Wm bm i j)
/-- The result: the encoded keys read through the updated memory. -/
def out (r : Fin 32768) (j : Fin 512) : EReal :=
  affine (enc2 x W1 b1 W2 b2) (newW x v W1 b1 W2 b2 Wm bm gate rate) (cur1 bm) r j

end

end Cert.NeuralMemory

end
-- ==== Proof.PayloadValue.lean ====
/-
  The arithmetic of the kernel bodies, read at one index over the extended reals.

  Every stored value of the two kernel bodies is a composition of pointwise operations, changes of
  float format (the identity on extended reals), changes of layout (a transpose, a unit axis added, one
  row repeated over all rows) and contractions over one axis into a zero accumulator. Read at an index
  (r, j) each contraction is a plain sum over the contracted coordinate, 0 + s = s, and each layout
  operation reads its operand at one index. Composing these readings gives:
    • the second hidden layer of the tile, relu(relu(x·W1ᵀ + b1)·W2ᵀ + b2), at row r and feature j,
      where the kernel transposes a weight matrix before the product, so the right factor of each
      product is read at (j, k);
    • the memory read of the encoded tile, Σ_k h[r,k]·Wm[j,k], and the bias row repeated over the rows;
    • the accumulated outer products, acc[i,j] + Σ_b (pred[b,i] + bias[b,i] − target[b,i])·h[b,j];
    • the final read, Σ_k h[r,k]·W[j,k] + b[j].
  No law beyond 0 + s = s is used: the extended reals do not distribute, and nothing here needs them to.
-/
import proofs.«101176_j62654982914321_1_alg».proof.Proof.Gen.KernelIdeal.Skeleton
import proofs.«101176_j62654982914321_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Cert.KernelIdeal Cert.KernelIdeal.Gen Cert.NeuralMemory Idealize.ShloMosaic Idealize.ShloMosaic.ValueIdx

/-! ## The tile forms of the two hidden layers -/

/-- The first hidden layer of a tile of 2048 rows: relu(x·W1ᵀ + b1) at row r, feature j. -/
def tileEnc1 (v3 : Vec Ideal S2048x512 .f32) (v5 : Vec Ideal S512x512 .f32) (v9 : Vec Ideal S512 .f32)
    (r : Fin 2048) (j : Fin 512) : EReal :=
  max (affine (fun r k => v3 (ix2 r k)) (fun j k => v5 (ix2 j k)) (fun j => v9 (ix1 j)) r j) 0

/-- The second hidden layer of the tile: relu(h1·W2ᵀ + b2) at row r, feature j. -/
def tileEnc2 (v3 : Vec Ideal S2048x512 .f32) (v5 : Vec Ideal S512x512 .f32) (v9 : Vec Ideal S512 .f32)
    (v16 : Vec Ideal S512x512 .f32) (v20 : Vec Ideal S512 .f32) (r : Fin 2048) (j : Fin 512) : EReal :=
  max (affine (tileEnc1 v3 v5 v9) (fun j k => v16 (ix2 j k)) (fun j => v20 (ix1 j)) r j) 0

/-! ## The three contractions at an index

Each has one contracted axis. The operand indices at output index (p, q) and contraction coordinate k are
read off the dimension numbers: a kept axis reads the output coordinate at its position, the contracted
axis reads k. -/

section EncDot

theorem lhsEnc_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide),
    dif_pos (show (0 : Fin S2048x512.rank) ∈ dot_S2048x512_S512x512_S2048x512_1_0_0_1_n_n.lhsNonContracting by decide)]
  rfl
theorem lhsEnc_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem rhsEnc_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem rhsEnc_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide),
    dif_pos (show (1 : Fin S512x512.rank) ∈ dot_S2048x512_S512x512_S2048x512_1_0_0_1_n_n.rhsNonContracting by decide)]
  rfl

/-- A tile of rows against a 512 × 512 matrix, into the zero accumulator: entry (r, j) is Σ_k L[r,k]·R[k,j]. -/
theorem mmEnc_apply {φ₁ φ₂ : FTy} (L : FVec Ideal S2048x512 φ₁) (R : FVec Ideal S512x512 φ₂) (r : Fin 2048) (j : Fin 512) :
    matmul dot_S2048x512_S512x512_S2048x512_1_0_0_1_n_n none L R (constant (F := Ideal) S2048x512 .f32 0x00000000#32) (ix2 r j)
      = ∑ k : Fin 512, L (ix2 r k) * R (ix2 k j) := by
  refine (Ideal.matmul_constant_zero_apply dot_S2048x512_S512x512_S2048x512_1_0_0_1_n_n none L R (ix2 r j)).trans ?_
  rw [← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 r j)
      ((contrEquiv1 dot_S2048x512_S512x512_S2048x512_1_0_0_1_n_n 512 rfl rfl).symm k) = ix2 r k :=
    funext fun a => Fin.ext (by
      match a with
      | ⟨0, _⟩ => exact lhsEnc_0 _ _
      | ⟨1, _⟩ => exact (lhsEnc_1 _ _).trans hk)
  have er : dot_S2048x512_S512x512_S2048x512_1_0_0_1_n_n.rhsIdx (ix2 r j)
      ((contrEquiv1 dot_S2048x512_S512x512_S2048x512_1_0_0_1_n_n 512 rfl rfl).symm k) = ix2 k j :=
    funext fun a => Fin.ext (by
      match a with
      | ⟨0, _⟩ => exact (rhsEnc_0 _ _).trans hk
      | ⟨1, _⟩ => exact rhsEnc_1 _ _)
  rw [el, er]

end EncDot

section GradDot

theorem lhsGrad_0 (i : S512x512.Idx) (q : dot_S2048x512_S2048x512_S512x512_0_0_1_1_n_n.contr.Idx) :
    (dot_S2048x512_S2048x512_S512x512_0_0_1_1_n_n.lhsIdx i q 0).val = (q ⟨0, by decide⟩).val :=
  dot_S2048x512_S2048x512_S512x512_0_0_1_1_n_n.lhsIdx_val_of_single rfl i q
theorem lhsGrad_1 (i : S512x512.Idx) (q : dot_S2048x512_S2048x512_S512x512_0_0_1_1_n_n.contr.Idx) :
    (dot_S2048x512_S2048x512_S512x512_0_0_1_1_n_n.lhsIdx i q 1).val = (i 0).val := by
  unfold DotDims.lhsIdx
  rw [dif_neg (show ¬(1 : Fin S2048x512.rank) ∈ dot_S2048x512_S2048x512_S512x512_0_0_1_1_n_n.lhsBatch by decide),
    dif_pos (show (1 : Fin S2048x512.rank) ∈ dot_S2048x512_S2048x512_S512x512_0_0_1_1_n_n.lhsNonContracting by decide)]
  rfl
theorem rhsGrad_0 (i : S512x512.Idx) (q : dot_S2048x512_S2048x512_S512x512_0_0_1_1_n_n.contr.Idx) :
    (dot_S2048x512_S2048x512_S512x512_0_0_1_1_n_n.rhsIdx i q 0).val = (q ⟨0, by decide⟩).val :=
  dot_S2048x512_S2048x512_S512x512_0_0_1_1_n_n.rhsIdx_val_of_single rfl i q
theorem rhsGrad_1 (i : S512x512.Idx) (q : dot_S2048x512_S2048x512_S512x512_0_0_1_1_n_n.contr.Idx) :
    (dot_S2048x512_S2048x512_S512x512_0_0_1_1_n_n.rhsIdx i q 1).val = (i 1).val := by
  unfold DotDims.rhsIdx
  rw [dif_neg (show ¬(1 : Fin S2048x512.rank) ∈ dot_S2048x512_S2048x512_S512x512_0_0_1_1_n_n.rhsBatch by decide),
    dif_pos (show (1 : Fin S2048x512.rank) ∈ dot_S2048x512_S2048x512_S512x512_0_0_1_1_n_n.rhsNonContracting by decide)]
  rfl

/-- Two tiles of 2048 rows contracted over the rows, into the zero accumulator: entry (i, j) is
    Σ_b L[b,i]·R[b,j], the sum of the rows' outer products. -/
theorem mmGrad_apply {φ₁ φ₂ : FTy} (L : FVec Ideal S2048x512 φ₁) (R : FVec Ideal S2048x512 φ₂) (i j : Fin 512) :
    matmul dot_S2048x512_S2048x512_S512x512_0_0_1_1_n_n none L R (constant (F := Ideal) S512x512 .f32 0x00000000#32) (ix2 i j)
      = ∑ b : Fin 2048, L (ix2 b i) * R (ix2 b j) := by
  refine (Ideal.matmul_constant_zero_apply dot_S2048x512_S2048x512_S512x512_0_0_1_1_n_n none L R (ix2 i j)).trans ?_
  rw [← Equiv.sum_comp (contrEquiv1 dot_S2048x512_S2048x512_S512x512_0_0_1_1_n_n 2048 rfl rfl).symm]
  refine Finset.sum_congr rfl fun b _ => ?_
  have hb := contrEquiv1_symm_val dot_S2048x512_S2048x512_S512x512_0_0_1_1_n_n 2048 rfl rfl b
  have el : dot_S2048x512_S2048x512_S512x512_0_0_1_1_n_n.lhsIdx (ix2 i j)
      ((contrEquiv1 dot_S2048x512_S2048x512_S512x512_0_0_1_1_n_n 2048 rfl rfl).symm b) = ix2 b i :=
    funext fun a => Fin.ext (by
      match a with
      | ⟨0, _⟩ => exact (lhsGrad_0 _ _).trans hb
      | ⟨1, _⟩ => exact lhsGrad_1 _ _)
  have er : dot_S2048x512_S2048x512_S512x512_0_0_1_1_n_n.rhsIdx (ix2 i j)
      ((contrEquiv1 dot_S2048x512_S2048x512_S512x512_0_0_1_1_n_n 2048 rfl rfl).symm b) = ix2 b j :=
    funext fun a => Fin.ext (by
      match a with
      | ⟨0, _⟩ => exact (rhsGrad_0 _ _).trans hb
      | ⟨1, _⟩ => exact rhsGrad_1 _ _)
  rw [el, er]

end GradDot

section FinalDot

theorem lhsFin_0 (i : S4096x512.Idx) (q : dot_S4096x512_S512x512_S4096x512_1_0_0_1_n_n.contr.Idx) :
    (dot_S4096x512_S512x512_S4096x512_1_0_0_1_n_n.lhsIdx i q 0).val = (i 0).val := by
  unfold DotDims.lhsIdx
  rw [dif_neg (show ¬(0 : Fin S4096x512.rank) ∈ dot_S4096x512_S512x512_S4096x512_1_0_0_1_n_n.lhsBatch by decide),
    dif_pos (show (0 : Fin S4096x512.rank) ∈ dot_S4096x512_S512x512_S4096x512_1_0_0_1_n_n.lhsNonContracting by decide)]
  rfl
theorem lhsFin_1 (i : S4096x512.Idx) (q : dot_S4096x512_S512x512_S4096x512_1_0_0_1_n_n.contr.Idx) :
    (dot_S4096x512_S512x512_S4096x512_1_0_0_1_n_n.lhsIdx i q 1).val = (q ⟨0, by decide⟩).val :=
  dot_S4096x512_S512x512_S4096x512_1_0_0_1_n_n.lhsIdx_val_of_single rfl i q
theorem rhsFin_0 (i : S4096x512.Idx) (q : dot_S4096x512_S512x512_S4096x512_1_0_0_1_n_n.contr.Idx) :
    (dot_S4096x512_S512x512_S4096x512_1_0_0_1_n_n.rhsIdx i q 0).val = (q ⟨0, by decide⟩).val :=
  dot_S4096x512_S512x512_S4096x512_1_0_0_1_n_n.rhsIdx_val_of_single rfl i q
theorem rhsFin_1 (i : S4096x512.Idx) (q : dot_S4096x512_S512x512_S4096x512_1_0_0_1_n_n.contr.Idx) :
    (dot_S4096x512_S512x512_S4096x512_1_0_0_1_n_n.rhsIdx i q 1).val = (i 1).val := by
  unfold DotDims.rhsIdx
  rw [dif_neg (show ¬(1 : Fin S512x512.rank) ∈ dot_S4096x512_S512x512_S4096x512_1_0_0_1_n_n.rhsBatch by decide),
    dif_pos (show (1 : Fin S512x512.rank) ∈ dot_S4096x512_S512x512_S4096x512_1_0_0_1_n_n.rhsNonContracting by decide)]
  rfl

/-- A tile of 4096 rows against a 512 × 512 matrix, into the zero accumulator: entry (r, j) is Σ_k L[r,k]·R[k,j]. -/
theorem mmFin_apply {φ₁ φ₂ : FTy} (L : FVec Ideal S4096x512 φ₁) (R : FVec Ideal S512x512 φ₂) (r : Fin 4096) (j : Fin 512) :
    matmul dot_S4096x512_S512x512_S4096x512_1_0_0_1_n_n none L R (constant (F := Ideal) S4096x512 .f32 0x00000000#32) (ix2 r j)
      = ∑ k : Fin 512, L (ix2 r k) * R (ix2 k j) := by
  refine (Ideal.matmul_constant_zero_apply dot_S4096x512_S512x512_S4096x512_1_0_0_1_n_n none L R (ix2 r j)).trans ?_
  rw [← Equiv.sum_comp (contrEquiv1 dot_S4096x512_S512x512_S4096x512_1_0_0_1_n_n 512 rfl rfl).symm]
  refine Finset.sum_congr rfl fun k _ => ?_
  have hk := contrEquiv1_symm_val dot_S4096x512_S512x512_S4096x512_1_0_0_1_n_n 512 rfl rfl k
  have el : dot_S4096x512_S512x512_S4096x512_1_0_0_1_n_n.lhsIdx (ix2 r j)
      ((contrEquiv1 dot_S4096x512_S512x512_S4096x512_1_0_0_1_n_n 512 rfl rfl).symm k) = ix2 r k :=
    funext fun a => Fin.ext (by
      match a with
      | ⟨0, _⟩ => exact lhsFin_0 _ _
      | ⟨1, _⟩ => exact (lhsFin_1 _ _).trans hk)
  have er : dot_S4096x512_S512x512_S4096x512_1_0_0_1_n_n.rhsIdx (ix2 r j)
      ((contrEquiv1 dot_S4096x512_S512x512_S4096x512_1_0_0_1_n_n 512 rfl rfl).symm k) = ix2 k j :=
    funext fun a => Fin.ext (by
      match a with
      | ⟨0, _⟩ => exact (rhsFin_0 _ _).trans hk
      | ⟨1, _⟩ => exact rhsFin_1 _ _)
  rw [el, er]

end FinalDot

/-! ## One dense layer with its rectifier, as the body spells it -/

section Layer
variable {F : FTy → Type} [FloatOps F]

/-- relu(X·Wᵀ + b) over a tile: the weight matrix transposed, the product into the zero accumulator, the bias
    row repeated over the rows, the maximum with the zero splat. -/
def layerK (X : FVec F S2048x512 .f32) (W : Vec F S512x512 .f32) (b : Vec F S512 .f32) : FVec F S2048x512 .f32 :=
  maximumf
    (addf
      (matmul dot_S2048x512_S512x512_S2048x512_1_0_0_1_n_n none (truncf .bf16 X bitsLt_bf16_f32)
        (transpose S512x512 [1, 0] (truncf .bf16 W bitsLt_bf16_f32) transposes_S512x512_p1_0_S512x512)
        (constant S2048x512 .f32 0x00000000#32))
      (broadcastTo S2048x512 (shapeCast S1x512 b shapeCasts_S512_S1x512) broadcasts_S1x512_S2048x512))
    (broadcast S2048x512 (Scalar.ofBits (F := F) .f32 0x00000000#32))

/-- The body's second hidden layer is the layer applied twice. -/
theorem pay4_eq (v3 : Vec F S2048x512 .f32) (v5 : Vec F S512x512 .f32) (v9 : Vec F S512 .f32)
    (v16 : Vec F S512x512 .f32) (v20 : Vec F S512 .f32) :
    k0_pay4 v3 v5 v9 v16 v20 = layerK (layerK v3 v5 v9) v16 v20 := rfl

end Layer

/-- The layer at row r, feature j: max(Σ_k X[r,k]·W[j,k] + b[j], 0). -/
theorem layerK_apply (X : FVec Ideal S2048x512 .f32) (W : Vec Ideal S512x512 .f32) (b : Vec Ideal S512 .f32)
    (r : Fin 2048) (j : Fin 512) :
    layerK (F := Ideal) X W b (ix2 r j) = max ((∑ k : Fin 512, X (ix2 r k) * W (ix2 j k)) + b (ix1 j)) 0 := by
  unfold layerK
  refine (maximumf_apply _ _ _).trans ?_
  refine congrArg₂ max ?_ Ideal.ofBits_zero_f32
  refine (addf_apply _ _ _).trans ?_
  refine congrArg₂ (· + ·) ?_ ?_
  · refine (mmEnc_apply _ _ r j).trans ?_
    refine Finset.sum_congr rfl fun k _ => ?_
    refine congrArg₂ (· * ·) (truncf_apply _ _ _) ?_
    exact (transpose_ix2_apply _ _ k j).trans (truncf_apply _ _ _)
  · exact (broadcastTo_1b_ab_apply _ _ r j).trans (shapeCast_a_1a_apply _ _ 0 j)

/-! ## The first kernel's stored values -/

section Kernel0
variable (v3 : Vec Ideal S2048x512 .f32) (v5 : Vec Ideal S512x512 .f32) (v9 : Vec Ideal S512 .f32)
  (v16 : Vec Ideal S512x512 .f32) (v20 : Vec Ideal S512 .f32)

/-- The tile's encoded keys: the second hidden layer at row r, feature j. -/
theorem pay4_apply (r : Fin 2048) (j : Fin 512) :
    k0_pay4 (F := Ideal) v3 v5 v9 v16 v20 (ix2 r j) = tileEnc2 v3 v5 v9 v16 v20 r j := by
  refine (congrFun (pay4_eq (F := Ideal) v3 v5 v9 v16 v20) (ix2 r j)).trans ?_
  refine (layerK_apply _ v16 v20 r j).trans ?_
  unfold tileEnc2 affine
  refine congrArg₂ max (congrArg₂ (· + ·) (Finset.sum_congr rfl fun k _ => congrArg₂ (· * ·) ?_ rfl) rfl) rfl
  exact (layerK_apply v3 v5 v9 r k).trans rfl

/-- Stored in the narrower format the keys are the same extended reals. -/
theorem pay5_apply (r : Fin 2048) (j : Fin 512) :
    k0_pay5 (F := Ideal) v3 v5 v9 v16 v20 (ix2 r j) = tileEnc2 v3 v5 v9 v16 v20 r j :=
  (truncf_apply (k0_pay4 (F := Ideal) v3 v5 v9 v16 v20) bitsLt_bf16_f32 (ix2 r j)).trans (pay4_apply v3 v5 v9 v16 v20 r j)

/-- Carried on in the narrower format likewise. -/
theorem pay6_apply (r : Fin 2048) (j : Fin 512) :
    k0_pay6 (F := Ideal) v3 v5 v9 v16 v20 (ix2 r j) = tileEnc2 v3 v5 v9 v16 v20 r j :=
  (truncf_apply (k0_pay4 (F := Ideal) v3 v5 v9 v16 v20) bitsLt_bf16_f32 (ix2 r j)).trans (pay4_apply v3 v5 v9 v16 v20 r j)

/-- The memory read of the tile's keys, before the bias: Σ_k h[r,k]·Wm[j,k]. -/
theorem pay7_apply (v29 : Vec Ideal S512x512 .f32) (r : Fin 2048) (j : Fin 512) :
    k0_pay7 (F := Ideal) v3 v5 v9 v16 v20 v29 (ix2 r j) = ∑ k : Fin 512, tileEnc2 v3 v5 v9 v16 v20 r k * v29 (ix2 j k) := by
  unfold k0_pay7
  refine (mmEnc_apply _ _ r j).trans ?_
  refine Finset.sum_congr rfl fun k _ => ?_
  refine congrArg₂ (· * ·) (pay6_apply v3 v5 v9 v16 v20 r k) ?_
  exact (transpose_ix2_apply _ _ k j).trans (truncf_apply _ _ _)

end Kernel0

/-- The memory's bias row repeated over the tile's rows. -/
theorem pay8_apply (v33 : Vec Ideal S512 .f32) (r : Fin 2048) (j : Fin 512) :
    k0_pay8 (F := Ideal) v33 (ix2 r j) = v33 (ix1 j) := by
  unfold k0_pay8
  exact (broadcastTo_1b_ab_apply _ _ r j).trans (shapeCast_a_1a_apply _ _ 0 j)

/-- The accumulator after a tile: what it held plus the tile's summed outer products of residual and keys. -/
theorem pay1_apply (v28 : FVec Ideal S2048x512 .bf16) (v32 : FVec Ideal S2048x512 .f32) (v35 : FVec Ideal S2048x512 .f32)
    (v37 : Vec Ideal S2048x512 .f32) (v41 : Vec Ideal S512x512 .f32) (i j : Fin 512) :
    k0_pay1 (F := Ideal) v28 v32 v35 v37 v41 (ix2 i j)
      = v41 (ix2 i j) + ∑ b : Fin 2048, ((v32 (ix2 b i) + v35 (ix2 b i)) - v37 (ix2 b i)) * v28 (ix2 b j) := by
  unfold k0_pay1
  refine (congrFun (shapeCast_self _ _) (ix2 i j)).trans ?_
  refine (addf_apply _ _ _).trans ?_
  refine congrArg₂ (· + ·) rfl ?_
  refine (mmGrad_apply _ _ i j).trans ?_
  exact Finset.sum_congr rfl fun b _ => rfl

/-- The accumulator written out as one slab of the partial results. -/
theorem pay2_apply (v49 : Vec Ideal S512x512 .f32) (i j : Fin 512) :
    k0_pay2 (F := Ideal) v49 (ix3 (0 : Fin 1) i j) = v49 (ix2 i j) := by
  unfold k0_pay2
  exact shapeCast_ab_1ab_apply _ _ (0 : Fin 1) i j

/-- The accumulator's initial value is zero everywhere. -/
theorem pay3_apply (i j : Fin 512) : k0_pay3 (F := Ideal) (ix2 i j) = 0 := by
  unfold k0_pay3
  refine (congrFun (shapeCast_self _ _) (ix2 i j)).trans ?_
  exact Ideal.ofBits_zero_f32

/-! ## The second kernel's stored value -/

/-- The final read of a tile of 4096 encoded rows through the updated memory: Σ_k h[r,k]·W[j,k] + b[j]. -/
theorem final_apply (v0 : Vec Ideal S4096x512 .bf16) (v2 : Vec Ideal S512x512 .f32) (v7 : Vec Ideal S512 .f32)
    (r : Fin 4096) (j : Fin 512) :
    k1_pay1 (F := Ideal) v0 v2 v7 (ix2 r j) = (∑ k : Fin 512, v0 (ix2 r k) * v2 (ix2 j k)) + v7 (ix1 j) := by
  unfold k1_pay1
  refine (addf_apply _ _ _).trans ?_
  refine congrArg₂ (· + ·) ?_ ?_
  · refine (mmFin_apply _ _ r j).trans ?_
    refine Finset.sum_congr rfl fun k _ => ?_
    refine congrArg₂ (· * ·) (congrFun (shapeCast_self _ _) _) ?_
    refine (transpose_ix2_apply _ _ k j).trans ?_
    refine (truncf_apply (ψ := .bf16) _ bitsLt_bf16_f32 _).trans ?_
    exact congrFun (shapeCast_self _ _) _
  · exact (broadcastTo_1b_ab_apply _ _ r j).trans (shapeCast_a_1a_apply _ _ 0 j)

end Cert.KernelIdeal.PayValue

end
-- ==== Proof.LibSumBlocks.lean ====
/-
  Splitting a finite sum over a product extent into nested sums over its factors.
-/
import Mathlib.Algebra.BigOperators.Fin

open scoped BigOperators

namespace Cert.LibSumBlocks

/-- The position of entry `q` of block `p`, for blocks of length `b`, lies below `a * b`
when there are `a` blocks. -/
theorem blk_lt {a b p q : ℕ} (hp : p < a) (hq : q < b) : p * b + q < a * b :=
  calc p * b + q < p * b + b := Nat.add_lt_add_left hq _
    _ = (p + 1) * b := (Nat.succ_mul p b).symm
    _ ≤ a * b := Nat.mul_le_mul_right b hp

/-- A sum over `Fin (a * b)` is the sum over the `a` consecutive blocks of length `b` of the sum
inside each block: entry `q` of block `p` sits at position `p * b + q`. -/
theorem sum_fin_blocks2 {M : Type*} [AddCommMonoid M] (a b : ℕ) (f : Fin (a * b) → M) :
    ∑ i, f i = ∑ p : Fin a, ∑ q : Fin b, f ⟨p.val * b + q.val, blk_lt p.isLt q.isLt⟩ := by
  rw [← Equiv.sum_comp finProdFinEquiv f, Fintype.sum_prod_type]
  refine Finset.sum_congr rfl fun p _ => Finset.sum_congr rfl fun q _ => congrArg f (Fin.ext ?_)
  show q.val + b * p.val = p.val * b + q.val
  rw [Nat.mul_comm, Nat.add_comm]

/-- A sum over `Fin (a * b * c)` is a triple nested sum: the index range is cut into `a` blocks,
each block into `b` sub-blocks of length `c`; entry `s` of sub-block `q` of block `p` sits at
position `(p * b + q) * c + s`. -/
theorem sum_fin_blocks3 {M : Type*} [AddCommMonoid M] (a b c : ℕ) (f : Fin (a * b * c) → M) :
    ∑ i, f i = ∑ p : Fin a, ∑ q : Fin b, ∑ s : Fin c,
      f ⟨(p.val * b + q.val) * c + s.val, blk_lt (blk_lt p.isLt q.isLt) s.isLt⟩ :=
  (sum_fin_blocks2 (a * b) c f).trans
    (sum_fin_blocks2 a b fun pq : Fin (a * b) =>
      ∑ s : Fin c, f ⟨pq.val * c + s.val, blk_lt pq.isLt s.isLt⟩)

/-- The triple split of `sum_fin_blocks3` for an extent `n` given with a proof that it is the
product `a * b * c`, so that `n` may be a numeral. -/
theorem sum_fin_blocks3_of_eq {M : Type*} [AddCommMonoid M] (n a b c : ℕ) (h : n = a * b * c)
    (f : Fin n → M) :
    ∑ i, f i = ∑ p : Fin a, ∑ q : Fin b, ∑ s : Fin c,
      f ⟨(p.val * b + q.val) * c + s.val, h ▸ blk_lt (blk_lt p.isLt q.isLt) s.isLt⟩ := by
  subst h
  exact sum_fin_blocks3 a b c f

/-- A sum over the 32768 rows, cut into 2 halves of 8 blocks of 2048 rows each: row `s` of block
`q` of half `p` is row `(p * 8 + q) * 2048 + s`. -/
theorem sum_rows_32768 {M : Type*} [AddCommMonoid M] (f : Fin 32768 → M) :
    ∑ i : Fin 32768, f i = ∑ p : Fin 2, ∑ q : Fin 8, ∑ s : Fin 2048,
      f ⟨(p.val * 8 + q.val) * 2048 + s.val, by omega⟩ :=
  sum_fin_blocks3_of_eq 32768 2 8 2048 (by decide) f

end Cert.LibSumBlocks
-- ==== Proof.ChunkMath.lean ====
/-
  The mathematics of computing the memory update chunk by chunk.

  The batch of 32768 rows is cut into 2 halves of 8 tiles of 2048 rows. The summed outer products
  over the whole batch are the sum of the two halves' partial sums, each of which is accumulated
  tile after tile; and a dense layer applied to a tile of rows is the dense layer of the whole
  array read at those rows.
-/
import proofs.«101176_j62654982914321_1_alg».proof.Proof.Spec
import proofs.«101176_j62654982914321_1_alg».proof.Proof.LibSumBlocks

noncomputable section

open scoped BigOperators

namespace Cert.NeuralMemory.Chunk

open Idealize.ShloMosaic Idealize.ShloMosaic.ValueIdx Cert.NeuralMemory

/-! ## The update from the two halves' partial sums -/

/-- The summed outer products over the whole batch are the sum of the two halves' partial sums,
when half `p`'s partial sum `G p` runs over its 8 tiles of 2048 rows. -/
theorem gradSum_of_chunks (x v : Mat 32768 512) (W1 : Mat 512 512) (b1 : Row 512) (W2 : Mat 512 512)
    (b2 : Row 512) (Wm : Mat 512 512) (bm : Row 512)
    (G : Fin 2 → Fin 512 → Fin 512 → EReal)
    (hG : ∀ (p : Fin 2) (i j : Fin 512), G p i j = ∑ q : Fin 8, ∑ s : Fin 2048,
      resid x v W1 b1 W2 b2 Wm bm ⟨(p.val * 8 + q.val) * 2048 + s.val, by omega⟩ i
        * enc2 x W1 b1 W2 b2 ⟨(p.val * 8 + q.val) * 2048 + s.val, by omega⟩ j)
    (i j : Fin 512) :
    gradSum x v W1 b1 W2 b2 Wm bm i j = G 0 i j + G 1 i j := by
  unfold gradSum
  rw [Cert.LibSumBlocks.sum_rows_32768, Fin.sum_univ_two, hG 0 i j, hG 1 i j]

/-- The updated memory matrix from the two halves' partial sums: the partial sums are added, scaled
by 2⁻²³ on the right, multiplied by the rate, and added to the gated old matrix. Only the
commutativity of the product with the scale is used. -/
theorem newW_of_chunks (x v : Mat 32768 512) (W1 : Mat 512 512) (b1 : Row 512) (W2 : Mat 512 512)
    (b2 : Row 512) (Wm : Mat 512 512) (bm : Row 512) (gate rate : Row 1)
    (G : Fin 2 → Fin 512 → Fin 512 → EReal)
    (hG : ∀ (p : Fin 2) (i j : Fin 512), G p i j = ∑ q : Fin 8, ∑ s : Fin 2048,
      resid x v W1 b1 W2 b2 Wm bm ⟨(p.val * 8 + q.val) * 2048 + s.val, by omega⟩ i
        * enc2 x W1 b1 W2 b2 ⟨(p.val * 8 + q.val) * 2048 + s.val, by omega⟩ j)
    (i j : Fin 512) :
    (oneW - gate (ix1 0)) * cur2 Wm i j + rate (ix1 0) * ((G 0 i j + G 1 i j) * scaleW)
      = newW x v W1 b1 W2 b2 Wm bm gate rate i j := by
  unfold newW
  rw [gradSum_of_chunks x v W1 b1 W2 b2 Wm bm G hG i j, mul_comm scaleW]

/-! ## Accumulating eight terms one after the other -/

/-- An accumulator that starts at zero plus the first term and adds one term per step holds, after
the eighth step, the sum of the eight terms. -/
theorem acc_eight {M : Type*} [AddCommMonoid M] (f : Fin 8 → M) (a : Fin 8 → M) (h0 : a 0 = 0 + f 0)
    (hs : ∀ q : Fin 8, ∀ hq : q.val + 1 < 8, a ⟨q.val + 1, hq⟩ = a q + f ⟨q.val + 1, hq⟩) :
    a 7 = ∑ q : Fin 8, f q := by
  have h1 : a 1 = a 0 + f 1 := hs 0 (by decide)
  have h2 : a 2 = a 1 + f 2 := hs 1 (by decide)
  have h3 : a 3 = a 2 + f 3 := hs 2 (by decide)
  have h4 : a 4 = a 3 + f 4 := hs 3 (by decide)
  have h5 : a 5 = a 4 + f 5 := hs 4 (by decide)
  have h6 : a 6 = a 5 + f 6 := hs 5 (by decide)
  have h7 : a 7 = a 6 + f 7 := hs 6 (by decide)
  rw [Fin.sum_univ_eight, h7, h6, h5, h4, h3, h2, h1, h0, zero_add]

/-- The same with the accumulator indexed by the step's number. -/
theorem acc_eight_nat {M : Type*} [AddCommMonoid M] (f : Fin 8 → M) (a : ℕ → M) (h0 : a 0 = 0 + f 0)
    (hs : ∀ n : ℕ, ∀ hn : n + 1 < 8, a (n + 1) = a n + f ⟨n + 1, hn⟩) :
    a 7 = ∑ q : Fin 8, f q := by
  have h1 : a 1 = a 0 + f 1 := hs 0 (by decide)
  have h2 : a 2 = a 1 + f 2 := hs 1 (by decide)
  have h3 : a 3 = a 2 + f 3 := hs 2 (by decide)
  have h4 : a 4 = a 3 + f 4 := hs 3 (by decide)
  have h5 : a 5 = a 4 + f 5 := hs 4 (by decide)
  have h6 : a 6 = a 5 + f 6 := hs 5 (by decide)
  have h7 : a 7 = a 6 + f 7 := hs 6 (by decide)
  rw [Fin.sum_univ_eight, h7, h6, h5, h4, h3, h2, h1, h0, zero_add]

/-! ## A dense layer on a tile of rows -/

/-- A dense layer applied to a block of rows is the dense layer of the whole array at those rows:
if row `q` of the block is row `ρ q` of the array, so is row `q` of the layer's result. -/
theorem affine_rows {n N : ℕ} (xb : Fin n → Fin 512 → EReal) (X : Fin N → Fin 512 → EReal)
    (W : Fin 512 → Fin 512 → EReal) (b : Fin 512 → EReal) (ρ : Fin n → Fin N)
    (h : ∀ q k, xb q k = X (ρ q) k) (q : Fin n) (j : Fin 512) :
    affine xb W b q j = affine X W b (ρ q) j := by
  unfold affine
  exact congrArg (fun s => s + b j) (Finset.sum_congr rfl fun k _ => by rw [h q k])

/-- The first hidden layer of a block of rows is the first hidden layer of the batch at those rows. -/
theorem enc1_rows {n : ℕ} (x : Mat 32768 512) (W1 : Mat 512 512) (b1 : Row 512)
    (xb : Fin n → Fin 512 → EReal) (ρ : Fin n → Fin 32768) (h : ∀ q k, xb q k = cur2 x (ρ q) k)
    (q : Fin n) (j : Fin 512) :
    max (affine xb (cur2 W1) (cur1 b1) q j) 0 = enc1 x W1 b1 (ρ q) j := by
  unfold enc1
  exact congrArg (fun s => max s 0) (affine_rows xb (cur2 x) (cur2 W1) (cur1 b1) ρ h q j)

/-- The two encoder layers of a block of rows are the encoded keys of the batch at those rows.
Apply it with `ρ q := ⟨t * 2048 + q.val, _⟩` for tile number `t`. -/
theorem enc2_rows {n : ℕ} (x : Mat 32768 512) (W1 : Mat 512 512) (b1 : Row 512) (W2 : Mat 512 512)
    (b2 : Row 512) (xb : Fin n → Fin 512 → EReal) (ρ : Fin n → Fin 32768)
    (h : ∀ q k, xb q k = cur2 x (ρ q) k) (q : Fin n) (j : Fin 512) :
    max (affine (fun q k => max (affine xb (cur2 W1) (cur1 b1) q k) 0) (cur2 W2) (cur1 b2) q j) 0
      = enc2 x W1 b1 W2 b2 (ρ q) j := by
  unfold enc2
  exact congrArg (fun s => max s 0)
    (affine_rows (fun q k => max (affine xb (cur2 W1) (cur1 b1) q k) 0) (enc1 x W1 b1) (cur2 W2)
      (cur1 b2) ρ (fun q k => enc1_rows x W1 b1 xb ρ h q k) q j)

/-- The residual of a block of rows: the memory read of the block's encoded keys minus the block's
targets is the batch's residual at those rows. -/
theorem resid_rows {n : ℕ} (x v : Mat 32768 512) (W1 : Mat 512 512) (b1 : Row 512) (W2 : Mat 512 512)
    (b2 : Row 512) (Wm : Mat 512 512) (bm : Row 512) (hb vb : Fin n → Fin 512 → EReal)
    (ρ : Fin n → Fin 32768) (hh : ∀ q k, hb q k = enc2 x W1 b1 W2 b2 (ρ q) k)
    (hv : ∀ q k, vb q k = cur2 v (ρ q) k) (q : Fin n) (j : Fin 512) :
    affine hb (cur2 Wm) (cur1 bm) q j - vb q j = resid x v W1 b1 W2 b2 Wm bm (ρ q) j := by
  unfold resid
  rw [affine_rows hb (enc2 x W1 b1 W2 b2) (cur2 Wm) (cur1 bm) ρ hh q j, hv q j]

/-- The result on a block of rows: the block's encoded keys read through a matrix equal to the
updated memory matrix are the batch's result at those rows. -/
theorem out_rows {n : ℕ} (x v : Mat 32768 512) (W1 : Mat 512 512) (b1 : Row 512) (W2 : Mat 512 512)
    (b2 : Row 512) (Wm : Mat 512 512) (bm : Row 512) (gate rate : Row 1)
    (hb : Fin n → Fin 512 → EReal) (Wn : Fin 512 → Fin 512 → EReal) (ρ : Fin n → Fin 32768)
    (hh : ∀ q k, hb q k = enc2 x W1 b1 W2 b2 (ρ q) k)
    (hW : ∀ i k, Wn i k = newW x v W1 b1 W2 b2 Wm bm gate rate i k) (q : Fin n) (j : Fin 512) :
    affine hb Wn (cur1 bm) q j = out x v W1 b1 W2 b2 Wm bm gate rate (ρ q) j := by
  unfold out
  rw [← affine_rows hb (enc2 x W1 b1 W2 b2) (newW x v W1 b1 W2 b2 Wm bm gate rate) (cur1 bm) ρ hh q j]
  unfold affine
  exact congrArg (fun s => s + cur1 bm j) (Finset.sum_congr rfl fun k _ => by rw [hW j k])

end Cert.NeuralMemory.Chunk

end
-- ==== Proof.EncoderValue.lean ====
/-
  The first region's gradient output as a value.

  One tile's arithmetic over the extended reals: the stored encoded rows are the batch's encoded keys at the
  tile's rows, and the accumulator after the tile is what it held plus the sum over the tile's rows of
  residual times key. Along a chunk of 8 tiles the accumulator starts at zero plus the first tile's sum and
  gains one tile's sum per step, so after the chunk's last step it holds the double sum over the chunk's
  tiles and rows; that step copies it into the gradient output's slab of the chunk, the only time the slab
  is written back. The two chunks' slabs cover the array.
-/
import proofs.«101176_j62654982914321_1_alg».proof.Proof.EncoderBlocks
import proofs.«101176_j62654982914321_1_alg».proof.Proof.PayloadValue
import proofs.«101176_j62654982914321_1_alg».proof.Proof.ChunkMath
import Idealize.ShloMosaic.Lib.Pipeline.Value
import Idealize.ShloMosaic.Lib.ValueIdx

set_option maxRecDepth 16384

noncomputable section

open scoped BigOperators

namespace Cert.KernelIdeal.Val0

open Cert.KernelIdeal Cert.KernelIdeal.Gen Cert.KernelIdeal.Fr
open Idealize.ShloMosaic Idealize.ShloMosaic.TcCoe Idealize.ShloMosaic.Tactic
open Idealize.SL Idealize.SL.Sem
open Idealize.ShloMosaic.Pipeline (Dat Cfg Window)
open Cert.KernelIdeal.PayValue Cert.NeuralMemory Cert.NeuralMemory.Chunk

open Idealize.ShloMosaic.ValueIdx

/-! ## One tile's arithmetic, over the extended reals -/

section Tile

/-- The tile's two encoder layers are the batch's encoded keys at the tile's rows. -/
theorem tileEnc2_rows (X : Mat 32768 512) (W1 : Mat 512 512) (b1 : Row 512) (W2 : Mat 512 512) (b2 : Row 512)
    (x0 : Vec Ideal S2048x512 .f32) (ρ : Fin 2048 → Fin 32768) (h0 : ∀ s k, x0 (ix2 s k) = cur2 X (ρ s) k)
    (s : Fin 2048) (j : Fin 512) :
    tileEnc2 x0 W1 b1 W2 b2 s j = enc2 X W1 b1 W2 b2 (ρ s) j :=
  enc2_rows X W1 b1 W2 b2 (fun r k => x0 (ix2 r k)) ρ h0 s j

/-- The stored encoded rows of a tile are the batch's encoded keys at the tile's rows. -/
theorem tile_enc (X : Mat 32768 512) (W1 : Mat 512 512) (b1 : Row 512) (W2 : Mat 512 512) (b2 : Row 512)
    (x0 : Vec Ideal S2048x512 .f32) (ρ : Fin 2048 → Fin 32768) (h0 : ∀ s k, x0 (ix2 s k) = cur2 X (ρ s) k)
    (s : Fin 2048) (j : Fin 512) :
    k0_pay5 (F := Ideal) x0 W1 b1 W2 b2 (ix2 s j) = enc2 X W1 b1 W2 b2 (ρ s) j :=
  (pay5_apply x0 W1 b1 W2 b2 s j).trans (tileEnc2_rows X W1 b1 W2 b2 x0 ρ h0 s j)

/-- The accumulator after a tile: what it held plus the sum over the tile's rows of residual times key. -/
theorem tile_acc (X Y : Mat 32768 512) (W1 : Mat 512 512) (b1 : Row 512) (W2 : Mat 512 512) (b2 : Row 512) (Wm : Mat 512 512) (bm : Row 512)
    (x0 x1 : Vec Ideal S2048x512 .f32) (ρ : Fin 2048 → Fin 32768) (h0 : ∀ s k, x0 (ix2 s k) = cur2 X (ρ s) k)
    (h1 : ∀ s k, x1 (ix2 s k) = cur2 Y (ρ s) k) (acc : Vec Ideal S512x512 .f32) (i j : Fin 512) :
    k0_pay1 (F := Ideal) (k0_pay6 x0 W1 b1 W2 b2) (k0_pay7 x0 W1 b1 W2 b2 Wm) (k0_pay8 bm) x1 acc (ix2 i j)
      = acc (ix2 i j) + ∑ s : Fin 2048, resid X Y W1 b1 W2 b2 Wm bm (ρ s) i * enc2 X W1 b1 W2 b2 (ρ s) j := by
  refine (pay1_apply _ _ _ _ _ i j).trans ?_
  refine congrArg (fun z => acc (ix2 i j) + z) (Finset.sum_congr rfl fun b _ => ?_)
  refine congrArg₂ (· * ·) ?_ ((pay6_apply x0 W1 b1 W2 b2 b j).trans (tileEnc2_rows X W1 b1 W2 b2 x0 ρ h0 b j))
  refine (congrArg₂ (· - ·) (congrArg₂ (· + ·) (pay7_apply x0 W1 b1 W2 b2 Wm b i) (pay8_apply bm b i)) rfl).trans ?_
  exact resid_rows X Y W1 b1 W2 b2 Wm bm (tileEnc2 x0 W1 b1 W2 b2) (fun q k => x1 (ix2 q k)) ρ
    (fun q k => tileEnc2_rows X W1 b1 W2 b2 x0 ρ h0 q k) h1 b i

end Tile

/-! ## The buffers after each point, as values -/

section Values
variable (V : (c : Dev nD) → (b : Ref sig .tc) → Buf (Elt Ideal) ((c : Thread nD τ).loc b)) (c : Dev nD)

/-- After point t the encoded-rows buffer holds the batch's encoded keys at rows t·2048 …. -/
theorem enc_after_val (t : Fin cfg0.N) (s : Fin 2048) (j : Fin 512) :
    (outsAt0 V c t.val t.isLt).1 (ix2 s j) = enc2 (V c main_arg0) (V c main_arg2) (V c main_arg3) (V c main_arg4) (V c main_arg5) (rowOf t s) j := by
  rw [enc_after V c t, blk2_eq V c t, blk3_eq V c t, blk4_eq V c t, blk5_eq V c t]
  exact tile_enc (V c main_arg0) (V c main_arg2) (V c main_arg3) (V c main_arg4) (V c main_arg5) (iblk0 V c 0 t) (rowOf t) (blk0_apply V c t) s j

/-- The sum over tile t's rows of residual times key, entry (i, j). -/
def tsum (t : Fin cfg0.N) (i j : Fin 512) : EReal :=
  ∑ s : Fin 2048, resid (V c main_arg0) (V c main_arg1) (V c main_arg2) (V c main_arg3) (V c main_arg4) (V c main_arg5) (V c main_arg6) (V c main_arg7) (rowOf t s) i * enc2 (V c main_arg0) (V c main_arg2) (V c main_arg3) (V c main_arg4) (V c main_arg5) (rowOf t s) j

/-- The accumulator after position n. -/
def accAt (n : ℕ) (hn : n < cfg0.N) : Vec Ideal S512x512 .f32 := (outsAt0 V c n hn).2.2

theorem accAt_congr {n n' : ℕ} (h : n = n') (hn : n < cfg0.N) (hn' : n' < cfg0.N) : accAt V c n hn = accAt V c n' hn' := by
  subst h; rfl

/-- A chunk's first step: zero plus the tile's sum. -/
theorem acc_first_val (t : Fin cfg0.N) (h0 : t.val % 8 = 0) (i j : Fin 512) :
    accAt V c t.val t.isLt (ix2 i j) = 0 + tsum V c t i j := by
  unfold accAt
  rw [acc_first V c t h0, blk2_eq V c t, blk3_eq V c t, blk4_eq V c t, blk5_eq V c t, blk6_eq V c t, blk7_eq V c t]
  refine (tile_acc (V c main_arg0) (V c main_arg1) (V c main_arg2) (V c main_arg3) (V c main_arg4) (V c main_arg5) (V c main_arg6) (V c main_arg7) (iblk0 V c 0 t) (iblk0 V c 1 t) (rowOf t) (blk0_apply V c t) (blk1_apply V c t)
    (k0_pay3 (F := Ideal)) i j).trans ?_
  rw [pay3_apply]
  rfl

/-- A later step: what the step before left plus the tile's sum. -/
theorem acc_next_val (t : Fin cfg0.N) (h0 : ¬t.val % 8 = 0) (i j : Fin 512) :
    accAt V c t.val t.isLt (ix2 i j)
      = accAt V c (t.val - 1) (Nat.lt_of_le_of_lt (Nat.sub_le _ _) t.isLt) (ix2 i j) + tsum V c t i j := by
  unfold accAt
  rw [acc_next V c t h0, blk2_eq V c t, blk3_eq V c t, blk4_eq V c t, blk5_eq V c t, blk6_eq V c t, blk7_eq V c t]
  exact tile_acc (V c main_arg0) (V c main_arg1) (V c main_arg2) (V c main_arg3) (V c main_arg4) (V c main_arg5) (V c main_arg6) (V c main_arg7) (iblk0 V c 0 t) (iblk0 V c 1 t) (rowOf t) (blk0_apply V c t) (blk1_apply V c t)
    (outsAt0 V c (t.val - 1) (Nat.lt_of_le_of_lt (Nat.sub_le _ _) t.isLt)).2.2 i j

end Values

/-! ## A chunk's accumulation and the gradient output -/

section Chunk
variable (V : (c : Dev nD) → (b : Ref sig .tc) → Buf (Elt Ideal) ((c : Thread nD τ).loc b)) (c : Dev nD)

/-- Chunk p's summed outer products: over its 8 tiles, over each tile's 2048 rows, residual times key. -/
def gsum (p : Fin 2) (i j : Fin 512) : EReal :=
  ∑ q : Fin 8, ∑ s : Fin 2048,
    resid (V c main_arg0) (V c main_arg1) (V c main_arg2) (V c main_arg3) (V c main_arg4) (V c main_arg5) (V c main_arg6) (V c main_arg7) ⟨(p.val * 8 + q.val) * 2048 + s.val, by omega⟩ i
      * enc2 (V c main_arg0) (V c main_arg2) (V c main_arg3) (V c main_arg4) (V c main_arg5) ⟨(p.val * 8 + q.val) * 2048 + s.val, by omega⟩ j

theorem pt_lt (p : Fin 2) (n : ℕ) (hn : n < 8) : p.val * 8 + n < cfg0.N := by
  have hN : cfg0.N = 16 := N_0
  omega

/-- After the last step of chunk p the accumulator holds the chunk's summed outer products: it starts at zero
    plus the first tile's sum and gains one tile's sum per step. -/
theorem acc_chunk (p : Fin 2) (i j : Fin 512) :
    accAt V c (p.val * 8 + 7) (pt_lt p 7 (by decide)) (ix2 i j) = gsum V c p i j := by
  have key := acc_eight
    (fun q : Fin 8 => tsum V c ⟨p.val * 8 + q.val, pt_lt p q.val q.isLt⟩ i j)
    (fun q : Fin 8 => accAt V c (p.val * 8 + q.val) (pt_lt p q.val q.isLt) (ix2 i j))
    (acc_first_val V c ⟨p.val * 8 + (0 : Fin 8).val, pt_lt p _ (0 : Fin 8).isLt⟩
      (show (p.val * 8 + 0) % 8 = 0 by omega) i j)
    (fun q hq => by
      refine (acc_next_val V c ⟨p.val * 8 + (q.val + 1), pt_lt p _ hq⟩
        (show ¬(p.val * 8 + (q.val + 1)) % 8 = 0 by omega) i j).trans ?_
      refine congrArg (fun z : Vec Ideal S512x512 .f32 => z (ix2 i j) + tsum V c ⟨p.val * 8 + (q.val + 1), pt_lt p _ hq⟩ i j) ?_
      exact accAt_congr V c (by show p.val * 8 + (q.val + 1) - 1 = p.val * 8 + q.val; omega) _ _)
  exact key

end Chunk

/-! ## The gradient output array -/

section Grad
variable (V : (c : Dev nD) → (b : Ref sig .tc) → Buf (Elt Ideal) ((c : Thread nD τ).loc b)) (c : Dev nD)

theorem gsum_congr {p p' : Fin 2} {i i' j j' : Fin 512} (hp : p.val = p'.val) (hi : i.val = i'.val) (hj : j.val = j'.val) :
    gsum V c p i j = gsum V c p' i' j' := by
  obtain rfl := Fin.ext hp; obtain rfl := Fin.ext hi; obtain rfl := Fin.ext hj; rfl

/-- What the gradient output array ends holding: slab p is chunk p's summed outer products. -/
def gradArr : S2x512x512.Idx → EReal := fun idx => gsum V c (idx 0) (idx 1) (idx 2)

theorem gradArr_apply (p : Fin 2) (i j : Fin 512) : gradArr V c (ix3 p i j) = gsum V c p i j := rfl

/-- The one write-back of a chunk, at its last step, writes the chunk's slab. -/
theorem flushed9_eq (t : Fin cfg0.N) (hf : (cfg0.win 9).flush t = true) :
    (dat0 V c).flushed 9 t = ((cfg0.win 9).blk t).view.read (Elt Ideal) (gradArr V c) := by
  have h7 : t.val % 8 = 7 := (flush0_9 t).mp hf
  have hN : cfg0.N = 16 := N_0
  have htl : t.val < 16 := lt_of_lt_of_eq t.isLt hN
  show (cfg0.win 9).cut (grid0.coords t) ((dat0 V c).after 9 t) = _
  rw [after0_9]
  funext y
  rw [View.read_apply]
  obtain ⟨u, i, j, rfl⟩ : ∃ (u : Fin 1) (i j : Fin 512), y = ix3 u i j := ⟨y 0, y 1, y 2, eq_ix3 y⟩
  obtain rfl : u = 0 := Subsingleton.elim _ _
  show (outsAt0 V c t.val t.isLt).2.1 (ix3 (0 : Fin 1) i j) = gradArr V c (((cfg0.win 9).blk t).view.emb (ix3 (0 : Fin 1) i j))
  rw [grad_last V c t h7]
  refine (pay2_apply _ i j).trans ?_
  refine (congrFun (accAt_congr V c (show t.val = (⟨t.val / 8, by omega⟩ : Fin 2).val * 8 + 7 by show t.val = t.val / 8 * 8 + 7; omega) t.isLt (pt_lt _ 7 (by decide))) (ix2 i j)).trans ?_
  refine (acc_chunk V c ⟨t.val / 8, by omega⟩ i j).trans ?_
  unfold gradArr
  refine gsum_congr V c ?_ ?_ ?_
  · show t.val / 8 = win0_9.index t (0 : Fin 3) * 1 + 1 * 0; rw [(idx9 t).1]; omega
  · show i.val = win0_9.index t (1 : Fin 3) * 512 + 1 * i.val; rw [(idx9 t).2.1]; omega
  · show j.val = win0_9.index t (2 : Fin 3) * 512 + 1 * j.val; rw [(idx9 t).2.2]; omega

/-- An index of the array is in point t's block iff each coordinate is in the block's range on its axis. -/
theorem mem_blk9 (t : Fin cfg0.N) (i : S2x512x512.Idx) :
    i ∈ ((cfg0.win 9).blk t).view.set ↔ ∀ a : Fin 3, win0_9.index t a * S1x512x512.size a ≤ (i a).val
      ∧ (i a).val < win0_9.index t a * S1x512x512.size a + S1x512x512.size a := by
  show i ∈ ((View.whole main_v0_1).slice (win0_9.rect t)).set ↔ _
  rw [View.set_slice_whole, Rect.mem_set_unit]
  exact Iff.rfl

/-- The two chunks' last steps cover the two slabs, so the array ends holding the chunks' sums. -/
theorem grad_array_fun : (dat0 V c).arrAt 9 cfg0.N = gradArr V c :=
  (dat0 V c).arrAt_eq_of_cover 9 (gradArr V c) (flushed9_eq V c) fun i => by
    have hi0 : (i 0).val < 2 := (i 0).isLt
    have hi1 : (i 1).val < 512 := (i 1).isLt
    have hi2 : (i 2).val < 512 := (i 2).isLt
    have hN : cfg0.N = 16 := N_0
    refine ⟨⟨(i 0).val * 8 + 7, by omega⟩, (flush0_9 _).mpr (by show ((i 0).val * 8 + 7) % 8 = 7; omega), ?_⟩
    rw [mem_blk9]
    intro a
    match a with
    | ⟨0, _⟩ =>
      show win0_9.index _ (0 : Fin 3) * 1 ≤ (i 0).val ∧ (i 0).val < win0_9.index _ (0 : Fin 3) * 1 + 1
      rw [(idx9 _).1]; show ((i 0).val * 8 + 7) / 8 * 1 ≤ (i 0).val ∧ (i 0).val < ((i 0).val * 8 + 7) / 8 * 1 + 1; omega
    | ⟨1, _⟩ =>
      show win0_9.index _ (1 : Fin 3) * 512 ≤ (i 1).val ∧ (i 1).val < win0_9.index _ (1 : Fin 3) * 512 + 512
      rw [(idx9 _).2.1]; omega
    | ⟨2, _⟩ =>
      show win0_9.index _ (2 : Fin 3) * 512 ≤ (i 2).val ∧ (i 2).val < win0_9.index _ (2 : Fin 3) * 512 + 512
      rw [(idx9 _).2.2]; omega

/-- The gradient output array after the first region: slab p, entry (i, j), is the sum over chunk p's 8 tiles of
    2048 rows of residual times key. -/
theorem grad_array (p : Fin 2) (i j : Fin 512) :
    (dat0 V c).arrAt 9 cfg0.N (ix3 p i j)
      = ∑ q : Fin 8, ∑ s : Fin 2048,
          resid (V c main_arg0) (V c main_arg1) (V c main_arg2) (V c main_arg3) (V c main_arg4) (V c main_arg5) (V c main_arg6) (V c main_arg7) ⟨(p.val * 8 + q.val) * 2048 + s.val, by omega⟩ i
            * enc2 (V c main_arg0) (V c main_arg2) (V c main_arg3) (V c main_arg4) (V c main_arg5) ⟨(p.val * 8 + q.val) * 2048 + s.val, by omega⟩ j :=
  (congrFun (grad_array_fun V c) (ix3 p i j)).trans (gradArr_apply V c p i j)

end Grad

end Cert.KernelIdeal.Val0

end
-- ==== Proof.EncodedRows.lean ====
/-
  The encoded rows the first kernel region writes, as one array.

  The region walks the batch of 32768 rows in 16 tiles of 2048. At every point, whatever the step of its
  chunk, the body leaves in the encoded-rows tile the two encoder layers relu(relu(x·W1ᵀ + b1)·W2ᵀ + b2) of
  the tile's rows, and a dense layer applied to a tile of rows is the dense layer of the whole batch read at
  those rows. Tile t holds rows 2048·t … 2048·t + 2047; every tile is written back, and the 16 tiles cover
  the array (row r lies in tile r / 2048). So the array ends holding, at (r, j), the batch's encoded keys.
-/
import proofs.«101176_j62654982914321_1_alg».proof.Proof.EncoderBlocks
import proofs.«101176_j62654982914321_1_alg».proof.Proof.PayloadValue
import proofs.«101176_j62654982914321_1_alg».proof.Proof.ChunkMath
import proofs.«101176_j62654982914321_1_alg».proof.Proof.Spec
import Idealize.ShloMosaic.Lib.Pipeline.Value
import Idealize.ShloMosaic.Lib.ValueIdx
import Idealize.ShloMosaic.Lib.Tactic

set_option maxRecDepth 16384

noncomputable section

open scoped BigOperators

namespace Cert.KernelIdeal.Val0

open Cert.KernelIdeal Cert.KernelIdeal.Gen Cert.KernelIdeal.Fr Cert.KernelIdeal.PayValue Cert.NeuralMemory
open Idealize.ShloMosaic Idealize.ShloMosaic.TcCoe Idealize.ShloMosaic.Tactic Idealize.ShloMosaic.ValueIdx
open Idealize.SL.Sem
open Idealize.ShloMosaic.Pipeline (Dat)

/-! ## The encoded rows as one array -/

section Rows
variable (V : (c : Dev nD) → (b : Ref sig .tc) → Buf (Elt Ideal) ((c : Thread nD τ).loc b))

/-- The encoded rows' contents: the two encoder layers of the batch at row r, feature j. -/
def encRows (c : Dev nD) : S32768x512.Idx → EReal := fun i =>
  enc2 (V c main_arg0) (V c main_arg2) (V c main_arg3) (V c main_arg4) (V c main_arg5) (i 0) (i 1)

/-- The body's encoded tile at point t, row s, feature k is the batch's encoded row 2048·t + s. -/
theorem encRows_point (c : Dev nD) (t : Fin cfg0.N) (s : Fin 2048) (k : Fin 512) :
    k0_pay5 (F := Ideal) (iblk0 V c 0 t) (iblk0 V c 2 t) (iblk0 V c 3 t) (iblk0 V c 4 t) (iblk0 V c 5 t) (ix2 s k)
      = enc2 (V c main_arg0) (V c main_arg2) (V c main_arg3) (V c main_arg4) (V c main_arg5) (rowOf t s) k := by
  refine (pay5_apply (iblk0 V c 0 t) (iblk0 V c 2 t) (iblk0 V c 3 t) (iblk0 V c 4 t) (iblk0 V c 5 t) s k).trans ?_
  rw [blk2_eq V c t, blk3_eq V c t, blk4_eq V c t, blk5_eq V c t]
  exact Cert.NeuralMemory.Chunk.enc2_rows (V c main_arg0) (V c main_arg2) (V c main_arg3) (V c main_arg4) (V c main_arg5)
    (fun q k => iblk0 V c 0 t (ix2 q k)) (rowOf t) (fun q k => blk0_apply V c t q k) s k

/-- The same at an index of the tile given whole. -/
theorem encRows_point' (c : Dev nD) (t : Fin cfg0.N) (x : S2048x512.Idx) (R : Fin 32768) (K : Fin 512)
    (hR : R.val = t.val * 2048 + (x 0).val) (hK : K.val = (x 1).val) :
    k0_pay5 (F := Ideal) (iblk0 V c 0 t) (iblk0 V c 2 t) (iblk0 V c 3 t) (iblk0 V c 4 t) (iblk0 V c 5 t) x
      = enc2 (V c main_arg0) (V c main_arg2) (V c main_arg3) (V c main_arg4) (V c main_arg5) R K := by
  obtain ⟨s, k, rfl⟩ : ∃ (s : Fin 2048) (k : Fin 512), x = ix2 s k := ⟨x 0, x 1, eq_ix2 x⟩
  obtain rfl : K = k := Fin.ext hK
  obtain rfl : R = rowOf t s := Fin.ext hR
  exact encRows_point V c t s K

/-- What point t writes back is tile t of the encoded rows. -/
theorem encRows_flushed (c : Dev nD) (t : Fin cfg0.N) :
    (dat0 V c).flushed 8 t = ((cfg0.win 8).blk t).view.read (Elt Ideal) (encRows V c) := by
  obtain ⟨e0, e1⟩ := idx8 t
  show (cfg0.win 8).cut (grid0.coords t) ((dat0 V c).after 8 t) = _
  rw [after0_8, enc_after]
  refine funext fun (y : S2048x512.Idx) => ?_
  rw [View.read_apply]
  refine encRows_point' V c t ((cfg0.win 8).xinj (grid0.coords t) y) ((((cfg0.win 8).blk t).view.emb y) 0)
    ((((cfg0.win 8).blk t).view.emb y) 1) ?_ ?_
  · show win0_8.index t (0 : Fin 2) * 2048 + 1 * (y 0).val = t.val * 2048 + (y 0).val; omega
  · show win0_8.index t (1 : Fin 2) * 512 + 1 * (y 1).val = (y 1).val; omega

/-- An index of the array is in tile t iff each coordinate is in the tile's range on its axis. -/
theorem encRows_mem_blk (t : Fin cfg0.N) (i : S32768x512.Idx) :
    i ∈ ((cfg0.win 8).blk t).view.set ↔ ∀ a : Fin 2, win0_8.index t a * S2048x512.size a ≤ (i a).val
      ∧ (i a).val < win0_8.index t a * S2048x512.size a + S2048x512.size a := by
  show i ∈ ((View.whole main_v0_0).slice (win0_8.rect t)).set ↔ _
  rw [View.set_slice_whole, Rect.mem_set_unit]
  exact Iff.rfl

/-- Row r lies in tile r / 2048: the 16 tiles cover the array. -/
theorem encRows_cover (i : S32768x512.Idx) :
    ∃ t : Fin cfg0.N, (cfg0.win 8).flush t = true ∧ i ∈ ((cfg0.win 8).blk t).view.set := by
  have hN : cfg0.N = 16 := N_0
  have hi0 : (i 0).val < 32768 := (i 0).isLt
  have hi1 : (i 1).val < 512 := (i 1).isLt
  refine ⟨⟨(i 0).val / 2048, by rw [hN]; omega⟩, flush0_8 _, ?_⟩
  rw [encRows_mem_blk]
  obtain ⟨e0, e1⟩ := idx8 ⟨(i 0).val / 2048, by rw [hN]; omega⟩
  intro a
  match a with
  | ⟨0, _⟩ =>
    show win0_8.index _ (0 : Fin 2) * 2048 ≤ (i 0).val ∧ (i 0).val < win0_8.index _ (0 : Fin 2) * 2048 + 2048
    rw [e0]; dsimp only; omega
  | ⟨1, _⟩ =>
    show win0_8.index _ (1 : Fin 2) * 512 ≤ (i 1).val ∧ (i 1).val < win0_8.index _ (1 : Fin 2) * 512 + 512
    rw [e1]; omega

/-- The encoded-rows array after the first region. -/
theorem encRows_final (c : Dev nD) : (dat0 V c).arrAt 8 cfg0.N = encRows V c :=
  (dat0 V c).arrAt_eq_of_cover 8 (encRows V c) (fun t _ => encRows_flushed V c t) encRows_cover

/-- The encoded-rows array at row r, feature j: the batch's encoded keys. -/
theorem h_array (c : Dev nD) (r : Fin 32768) (j : Fin 512) :
    (dat0 V c).arrAt 8 cfg0.N (ix2 r j)
      = Cert.NeuralMemory.enc2 (V c main_arg0) (V c main_arg2) (V c main_arg3) (V c main_arg4) (V c main_arg5) r j :=
  congrFun (encRows_final V c) (ix2 r j)

end Rows

end Cert.KernelIdeal.Val0

end
-- ==== Proof.HostUpdate.lean ====
/-
  The host arithmetic between the two kernel regions, as one function of the summed partial gradients,
  the memory matrix, the gate and the rate, and its value at an index over the extended reals.

  The host adds the two partial gradient slabs (a sum over the leading axis of extent 2, started from
  zero), scales the sum by the float word of 2⁻²³, multiplies by the rate, and adds the memory matrix
  scaled by one minus the gate. The gate and the rate are one-element arrays; each reaches the 512 × 512
  product by being repeated first to shape [1, 1] and then over the matrix, so at every entry the factor
  is the array's one element. At entry (i, j):
      (1 − gate)·Wm[i,j] + rate·((g[0,i,j] + g[1,i,j])·2⁻²³).
  The only law used is 0 + s = s for the sum's initial value.
-/
import proofs.«101176_j62654982914321_1_alg».proof.Proof.Gen.KernelIdeal
import proofs.«101176_j62654982914321_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.HostUpdate

open Cert.KernelIdeal Cert.NeuralMemory Idealize.ShloMosaic Idealize.ShloMosaic.ValueIdx

variable [Cert.KernelIdeal.Facts]
open Cert.KernelIdeal.Facts₀

/-- The updated memory matrix as the host computes it from the two partial gradient slabs g, the memory
    matrix wm, the gate fg and the rate lr. -/
def updTerm {F : FTy → Type} [FloatOps F] (g : (⟨S2x512x512, .f32⟩ : BufTy).Contents (Elt F))
    (wm : (⟨S512x512, .f32⟩ : BufTy).Contents (Elt F)) (fg lr : (⟨S1, .f32⟩ : BufTy).Contents (Elt F)) :
    (⟨S512x512, .f32⟩ : BufTy).Contents (Elt F) :=
  addf
    (mulf
      (broadcastInDim S512x512 ![0, 1] bcast_S1x1_S512x512_0_1
        (broadcastInDim S1x1 ![1] bcast_S1_S1x1_1
          (subf (broadcastInDim S1 ![] bcast_S_S1 (constant S_ .f32 0x3F800000#32)) fg)))
      wm)
    (mulf
      (broadcastInDim S512x512 ![0, 1] bcast_S1x1_S512x512_0_1 (broadcastInDim S1x1 ![1] bcast_S1_S1x1_1 lr))
      (mulf (Host.reduceAdd g (constant S_ .f32 0x00000000#32) reducesTo_S2x512x512_S512x512_d0 h_S_)
        (broadcastInDim S512x512 ![] bcast_S_S512x512 (constant S_ .f32 0x34000000#32))))

/-- A one-element array repeated to shape [1, 1] and then over a 512 × 512 matrix reads its one element at
    every entry. -/
theorem spread_apply {α : Type} (x : S1.Idx → α) (i j : Fin 512) :
    broadcastInDim S512x512 ![0, 1] bcast_S1x1_S512x512_0_1 (broadcastInDim S1x1 ![1] bcast_S1_S1x1_1 x) (ix2 i j)
      = x (ix1 (0 : Fin 1)) := by
  refine (broadcastInDim_apply _ bcast_S1x1_S512x512_0_1 _ (ix2 i j) (ix2 (0 : Fin 1) (0 : Fin 1)) (fun a => match a with
    | ⟨0, _⟩ => by show 0 = if (1 : Nat) = 1 then 0 else i.val; rw [if_pos rfl]
    | ⟨1, _⟩ => by show 0 = if (1 : Nat) = 1 then 0 else j.val; rw [if_pos rfl])).trans ?_
  exact broadcastInDim_apply _ bcast_S1_S1x1_1 x (ix2 (0 : Fin 1) (0 : Fin 1)) (ix1 (0 : Fin 1)) (fun a => match a with
    | ⟨0, _⟩ => by show 0 = if (1 : Nat) = 1 then 0 else 0; rw [if_pos rfl])

/-- The host's sum of the two slabs, started from the zero word: entry (i, j) is g[0,i,j] + g[1,i,j]. -/
theorem slabSum_apply (g : (⟨S2x512x512, .f32⟩ : BufTy).Contents (Elt Ideal)) (i j : Fin 512) :
    Host.reduceAdd (F := Ideal) g (constant (F := Ideal) S_ .f32 0x00000000#32) reducesTo_S2x512x512_S512x512_d0 h_S_ (ix2 i j)
      = g (ix3 (0 : Fin 2) i j) + g (ix3 (1 : Fin 2) i j) := by
  have hR : S2x512x512.Reduces [0] S512x512 := by decide
  unfold Host.reduceAdd
  refine (Ideal.hostReduceAdd_single reducesTo_S2x512x512_S512x512_d0 hR g _ (ix2 i j)).trans ?_
  refine (congrArg₂ (· + ·) Ideal.ofBits_zero_f32 rfl).trans ?_
  refine (zero_add _).trans ?_
  refine (Fin.sum_univ_two (fun k : Fin 2 => g (hR.lift (ix2 i j) k))).trans ?_
  refine congrArg₂ (· + ·) (congrArg g ?_) (congrArg g ?_)
  · funext a; refine Fin.ext ?_
    match a with
    | ⟨0, _⟩ => rfl
    | ⟨1, _⟩ => rfl
    | ⟨2, _⟩ => rfl
  · funext a; refine Fin.ext ?_
    match a with
    | ⟨0, _⟩ => rfl
    | ⟨1, _⟩ => rfl
    | ⟨2, _⟩ => rfl

/-- The updated memory matrix at entry (i, j). -/
theorem updTerm_apply (g : (⟨S2x512x512, .f32⟩ : BufTy).Contents (Elt Ideal))
    (wm : (⟨S512x512, .f32⟩ : BufTy).Contents (Elt Ideal)) (fg lr : (⟨S1, .f32⟩ : BufTy).Contents (Elt Ideal))
    (i j : Fin 512) :
    updTerm (F := Ideal) g wm fg lr (ix2 i j)
      = (oneW - fg (ix1 0)) * wm (ix2 i j)
        + lr (ix1 0) * ((g (ix3 (0 : Fin 2) i j) + g (ix3 (1 : Fin 2) i j)) * scaleW) := by
  unfold updTerm
  refine (addf_apply _ _ _).trans ?_
  refine congrArg₂ (· + ·) ?_ ?_
  · refine (mulf_apply _ _ _).trans ?_
    refine congrArg₂ (· * ·) ?_ rfl
    refine (spread_apply _ i j).trans ?_
    refine (subf_apply _ _ _).trans ?_
    refine congrArg₂ (· - ·) ?_ rfl
    exact broadcastInDim_apply _ bcast_S_S1 _ (ix1 (0 : Fin 1)) ix0 (fun a => a.elim0)
  · refine (mulf_apply _ _ _).trans ?_
    refine congrArg₂ (· * ·) (spread_apply lr i j) ?_
    refine (mulf_apply _ _ _).trans ?_
    refine congrArg₂ (· * ·) (slabSum_apply g i j) ?_
    exact broadcastInDim_apply _ bcast_S_S512x512 _ (ix2 i j) ix0 (fun a => a.elim0)

end Cert.KernelIdeal.HostUpdate

end
-- ==== Proof.ReadoutValue.lean ====
/-
  The second kernel region's result array, and the host arithmetic before it, as values.

  Between the two regions the host builds the updated memory matrix from the first region's two partial
  gradient slabs, the memory matrix, the gate and the rate; it writes neither the encoded rows nor the
  memory's bias. The second region then walks the 32768 encoded rows in 8 tiles of 4096: at tile t it reads
  rows 4096·t … 4096·t + 4095 of the encoded rows, the whole updated matrix and the whole bias, and leaves in
  its output tile, at row s and feature j, Σ_k h[4096·t + s, k]·W[j, k] + b[j]. Every tile is written back and
  the 8 tiles cover the array (row r lies in tile r / 4096), so the result array holds at (r, j) the dense
  layer Σ_k h[r, k]·W[j, k] + b[j] of the encoded rows against the updated matrix.
-/
import proofs.«101176_j62654982914321_1_alg».proof.Proof.FrRegion1
import proofs.«101176_j62654982914321_1_alg».proof.Proof.PayloadValue
import proofs.«101176_j62654982914321_1_alg».proof.Proof.HostUpdate
import proofs.«101176_j62654982914321_1_alg».proof.Proof.Spec
import Idealize.ShloMosaic.Lib.Pipeline.Value
import Idealize.ShloMosaic.Lib.StableHlo.Run
import Idealize.ShloMosaic.Lib.Tactic

set_option maxRecDepth 16384

noncomputable section

open scoped BigOperators

namespace Cert.KernelIdeal.Val1

open Cert.KernelIdeal Cert.KernelIdeal.Gen Cert.KernelIdeal.Fr Cert.KernelIdeal.PayValue Cert.NeuralMemory
open Idealize.ShloMosaic Idealize.ShloMosaic.TcCoe Idealize.ShloMosaic.Tactic Idealize.ShloMosaic.ValueIdx
open Idealize.SL.Sem
open Idealize.ShloMosaic.Pipeline (Dat)

/-! ## The host stretch between the two regions -/

section Host
variable {F : FTy → Type} [FloatOps F]

/-- After the host operations the updated-matrix buffer holds the host's update term of the gradient slabs, the
    memory matrix, the gate and the rate as they stood before. -/
theorem host_update (Wv : Valuation τ sig (Elt F)) :
    StableHlo.after (hostOps1 (F := F)) Wv (Proc.devRef .tc main_v12)
      = Cert.KernelIdeal.HostUpdate.updTerm (Wv (Proc.devRef .tc main_v0_1)) (Wv (Proc.devRef .tc main_arg6))
          (Wv (Proc.devRef .tc main_arg8)) (Wv (Proc.devRef .tc main_arg9)) := by
  dsimp only [hostOps1]
  after_results
  rfl

/-- The host operations leave the encoded rows as they were. -/
theorem host_keeps_v0_0 (Wv : Valuation τ sig (Elt F)) :
    StableHlo.after (hostOps1 (F := F)) Wv (Proc.devRef .tc main_v0_0) = Wv (Proc.devRef .tc main_v0_0) :=
  StableHlo.after_of_forall_not_mem (b := Proc.devRef .tc main_v0_0) _ _ (List.forall_iff_forall_mem.mp (by
    simp only [hostOps1, List.Forall, StableHlo.nullary_writes, StableHlo.unary_writes, StableHlo.binary_writes,
      Finset.mem_singleton]
    repeat' apply And.intro
    all_goals exact StableHlo.devRef_ne_of_ne (by decide)))

/-- The host operations leave the memory's bias as it was. -/
theorem host_keeps_arg7 (Wv : Valuation τ sig (Elt F)) :
    StableHlo.after (hostOps1 (F := F)) Wv (Proc.devRef .tc main_arg7) = Wv (Proc.devRef .tc main_arg7) :=
  StableHlo.after_of_forall_not_mem (b := Proc.devRef .tc main_arg7) _ _ (List.forall_iff_forall_mem.mp (by
    simp only [hostOps1, List.Forall, StableHlo.nullary_writes, StableHlo.unary_writes, StableHlo.binary_writes,
      Finset.mem_singleton]
    repeat' apply And.intro
    all_goals exact StableHlo.devRef_ne_of_ne (by decide)))

end Host

/-! ## The second region's one found piece -/

/-- The zero offsets of a rank-2 whole-buffer access. -/
theorem hz2 : (![0, 0] : Fin 2 → Nat) = fun _ => 0 := funext fun a => by fin_cases a <;> rfl
/-- The zero offset of a rank-1 whole-buffer access. -/
theorem hz1 : (![0] : Fin 1 → Nat) = fun _ => 0 := funext fun a => by fin_cases a <;> rfl

section Piece
variable {F : FTy → Type} [FloatOps F]

/-- What the body leaves in its output tile is its one store's value: the body's arithmetic of the three tiles it
    loads whole. -/
theorem out1_3_eq (c : Dev nD) (i : grid1.Coords) (arg1 : Memref sig .tc .vmem S4096x512 .bf16) (harg1 : arg1.IsWhole)
    (arg2 : Memref sig .tc .vmem S512x512 .f32) (harg2 : arg2.IsWhole) (arg3 : Memref sig .tc .vmem S512 .f32) (harg3 : arg3.IsWhole)
    (arg4 : Memref sig .tc .vmem S4096x512 .f32) (harg4 : arg4.IsWhole)
    (x0 : Vec F S4096x512 .bf16) (x1 : Vec F S512x512 .f32) (x2 : Vec F S512 .f32) :
    out1_3 c i arg1 harg1 arg2 harg2 arg3 harg3 arg4 harg4 x0 x1 x2 = k1_pay1 x0 x1 x2 := by
  unfold out1_3
  rw [View.read_writes_eq_canon _ _ _ (cover1_3 c i arg1 harg1 arg2 harg2 arg3 harg3 arg4 harg4 x0 x1 x2)]
  unfold kernelRun1
  dsimp only
  rw [View.canon_unit_zero hz2]
  simp only [View.readAt_eq_ld, harg1.read_unread, harg2.read_unread, harg3.read_unread,
    View.ld_unit_zero (S := S4096x512) hz2, View.ld_unit_zero (S := S512x512) hz2, View.ld_unit_zero (S := S512) hz1]

end Piece

/-! ## The blocks the second region reads -/

section Blocks
variable (V : (c : Dev nD) → (b : Ref sig .tc) → Buf (Elt Ideal) ((c : Thread nD τ).loc b))

/-- The index maps over the grid of 8: the encoded rows and the result move one tile of rows per point, the matrix
    and the bias stay at block zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Tile t of the encoded rows, at row s: row 4096·t + s of the array. -/
theorem blk0_apply (c : Dev nD) (t : Fin cfg1.N) (s : Fin 4096) (k : Fin 512) (R : Fin 32768) (hR : R.val = t.val * 4096 + s.val) :
    iblk1 V c 0 t (ix2 s k) = V c main_v0_0 (ix2 R k) := by
  obtain ⟨e0, e1, -⟩ := idx_facts t
  unfold iblk1
  rw [View.read_apply]
  show V c main_v0_0 _ = V c main_v0_0 _
  refine congrArg (V c main_v0_0) (funext fun a => Fin.ext ?_)
  match a with
  | ⟨0, _⟩ => show win1_0.index t (0 : Fin 2) * 4096 + 1 * s.val = R.val; omega
  | ⟨1, _⟩ => show win1_0.index t (1 : Fin 2) * 512 + 1 * k.val = k.val; omega

/-- The matrix's one block is the matrix. -/
theorem blk1_apply (c : Dev nD) (t : Fin cfg1.N) (j k : Fin 512) :
    iblk1 V c 1 t (ix2 j k) = V c main_v12 (ix2 j k) := by
  obtain ⟨-, -, e0, e1, -⟩ := idx_facts t
  unfold iblk1
  rw [View.read_apply]
  show V c main_v12 _ = V c main_v12 _
  refine congrArg (V c main_v12) (funext fun a => Fin.ext ?_)
  match a with
  | ⟨0, _⟩ => show win1_1.index t (0 : Fin 2) * 512 + 1 * j.val = j.val; omega
  | ⟨1, _⟩ => show win1_1.index t (1 : Fin 2) * 512 + 1 * k.val = k.val; omega

/-- The bias's one block is the bias. -/
theorem blk2_apply (c : Dev nD) (t : Fin cfg1.N) (j : Fin 512) :
    iblk1 V c 2 t (ix1 j) = V c main_arg7 (ix1 j) := by
  obtain ⟨-, -, -, -, e0, -⟩ := idx_facts t
  unfold iblk1
  rw [View.read_apply]
  show V c main_arg7 _ = V c main_arg7 _
  refine congrArg (V c main_arg7) (funext fun a => Fin.ext ?_)
  match a with
  | ⟨0, _⟩ => show win1_2.index t (0 : Fin 1) * 512 + 1 * j.val = j.val; omega

/-- The result array's contents: the dense layer of the encoded rows against the updated matrix, plus the bias. -/
def G (c : Dev nD) : S32768x512.Idx → EReal := fun i =>
  affine (cur2 (V c main_v0_0)) (cur2 (V c main_v12)) (cur1 (V c main_arg7)) (i 0) (i 1)

/-- The body's value at tile t, row s, feature k is the dense layer at row 4096·t + s. -/
theorem point_eq (c : Dev nD) (t : Fin cfg1.N) (s : Fin 4096) (k : Fin 512) (R : Fin 32768) (K : Fin 512)
    (hR : R.val = t.val * 4096 + s.val) (hK : K.val = k.val) :
    k1_pay1 (F := Ideal) (iblk1 V c 0 t) (iblk1 V c 1 t) (iblk1 V c 2 t) (ix2 s k)
      = affine (cur2 (V c main_v0_0)) (cur2 (V c main_v12)) (cur1 (V c main_arg7)) R K := by
  obtain rfl : K = k := Fin.ext hK
  refine (final_apply (iblk1 V c 0 t) (iblk1 V c 1 t) (iblk1 V c 2 t) s K).trans ?_
  unfold affine cur2 cur1
  refine congrArg₂ (· + ·) (Finset.sum_congr rfl fun q _ => congrArg₂ (· * ·) ?_ ?_) ?_
  · exact blk0_apply V c t s q R hR
  · exact blk1_apply V c t K q
  · exact blk2_apply V c t K

/-- The same at an index of the tile given whole. -/
theorem point_eq' (c : Dev nD) (t : Fin cfg1.N) (x : S4096x512.Idx) (R : Fin 32768) (K : Fin 512)
    (hR : R.val = t.val * 4096 + (x 0).val) (hK : K.val = (x 1).val) :
    k1_pay1 (F := Ideal) (iblk1 V c 0 t) (iblk1 V c 1 t) (iblk1 V c 2 t) x
      = affine (cur2 (V c main_v0_0)) (cur2 (V c main_v12)) (cur1 (V c main_arg7)) R K := by
  obtain ⟨s, k, rfl⟩ : ∃ (s : Fin 4096) (k : Fin 512), x = ix2 s k := ⟨x 0, x 1, eq_ix2 x⟩
  exact point_eq V c t s k R K hR hK

/-- What point t writes back is tile t of the result's contents. -/
theorem flushed_eq (c : Dev nD) (t : Fin cfg1.N) :
    (dat1 V c).flushed 3 t = ((cfg1.win 3).blk t).view.read (Elt Ideal) (G V c) := by
  obtain ⟨-, -, -, -, -, e0, e1⟩ := idx_facts t
  show (cfg1.win 3).cut (grid1.coords t) ((dat1 V c).after 3 t) = _
  rw [after1_3, out1_3_eq]
  refine funext fun (y : S4096x512.Idx) => ?_
  rw [View.read_apply]
  refine point_eq' V c t ((cfg1.win 3).xinj (grid1.coords t) y) ((((cfg1.win 3).blk t).view.emb y) 0)
    ((((cfg1.win 3).blk t).view.emb y) 1) ?_ ?_
  · show win1_3.index t (0 : Fin 2) * 4096 + 1 * (y 0).val = t.val * 4096 + (y 0).val; omega
  · show win1_3.index t (1 : Fin 2) * 512 + 1 * (y 1).val = (y 1).val; omega

end Blocks

section Array
variable (V : (c : Dev nD) → (b : Ref sig .tc) → Buf (Elt Ideal) ((c : Thread nD τ).loc b))

/-- An index of the array is in tile t iff each coordinate is in the tile's range on its axis. -/
theorem mem_blk (t : Fin cfg1.N) (i : S32768x512.Idx) :
    i ∈ ((cfg1.win 3).blk t).view.set ↔ ∀ a : Fin 2, win1_3.index t a * S4096x512.size a ≤ (i a).val
      ∧ (i a).val < win1_3.index t a * S4096x512.size a + S4096x512.size a := by
  show i ∈ ((View.whole main_v13).slice (win1_3.rect t)).set ↔ _
  rw [View.set_slice_whole, Rect.mem_set_unit]
  exact Iff.rfl

/-- Row r lies in tile r / 4096: the tiles cover the array. -/
theorem cover (i : S32768x512.Idx) : ∃ t : Fin cfg1.N, (cfg1.win 3).flush t = true ∧ i ∈ ((cfg1.win 3).blk t).view.set := by
  have hN : cfg1.N = 8 := N_1
  have hi0 : (i 0).val < 32768 := (i 0).isLt
  have hi1 : (i 1).val < 512 := (i 1).isLt
  refine ⟨⟨(i 0).val / 4096, by rw [hN]; omega⟩, flush1_3 _, ?_⟩
  rw [mem_blk]
  obtain ⟨-, -, -, -, -, e0, e1⟩ := idx_facts ⟨(i 0).val / 4096, by rw [hN]; omega⟩
  intro a
  match a with
  | ⟨0, _⟩ =>
    show win1_3.index _ (0 : Fin 2) * 4096 ≤ (i 0).val ∧ (i 0).val < win1_3.index _ (0 : Fin 2) * 4096 + 4096
    rw [e0]; dsimp only; omega
  | ⟨1, _⟩ =>
    show win1_3.index _ (1 : Fin 2) * 512 ≤ (i 1).val ∧ (i 1).val < win1_3.index _ (1 : Fin 2) * 512 + 512
    rw [e1]; omega

/-- The result array after the region. -/
theorem final (c : Dev nD) : (dat1 V c).arrAt 3 cfg1.N = G V c :=
  (dat1 V c).arrAt_eq_of_cover 3 (G V c) (fun t _ => flushed_eq V c t) cover

/-- The result array at row r, feature j. -/
theorem out_array (c : Dev nD) (r : Fin 32768) (j : Fin 512) :
    (dat1 V c).arrAt 3 cfg1.N (ix2 r j)
      = Cert.NeuralMemory.affine (Cert.NeuralMemory.cur2 (V c main_v0_0)) (Cert.NeuralMemory.cur2 (V c main_v12))
          (Cert.NeuralMemory.cur1 (V c main_arg7)) r j :=
  congrFun (final V c) (ix2 r j)

end Array

end Cert.KernelIdeal.Val1

end
-- ==== Proof.KernelValue.lean ====
/-
  The idealized kernel program's result, index by index: the second region writes the encoded rows read through the
  matrix the host operations built; the encoded rows are what the first region left in its first output; the matrix
  is (1 − gate)·Wm + rate·(2⁻²³ · the sum of the two chunks' accumulated outer products), and the two chunks' double
  sums over their tiles and rows are the single sum over the whole batch. Hence the result is the specification's
  out, at every row and feature.
-/
import proofs.«101176_j62654982914321_1_alg».proof.Proof.FrMain
import proofs.«101176_j62654982914321_1_alg».proof.Proof.EncoderValue
import proofs.«101176_j62654982914321_1_alg».proof.Proof.EncodedRows
import proofs.«101176_j62654982914321_1_alg».proof.Proof.ReadoutValue
import proofs.«101176_j62654982914321_1_alg».proof.Proof.ChunkMath
import proofs.«101176_j62654982914321_1_alg».proof.Proof.HostUpdate

noncomputable section

namespace Cert.KernelIdeal.Fr

open Cert.KernelIdeal Cert.KernelIdeal.Gen Cert.NeuralMemory
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- An array the first region stages through an input window is unchanged at its exit. -/
theorem W1_in (c : Dev nD) (w : Fin cfg0.W) (hw : (cfg0.win w).isOut = false) :
    W1 m ρ c (Proc.devRef .tc (Pipeline.arrRef spec0 w)) = V0 m ρ c (Pipeline.arrRef spec0 w) :=
  (W1_arr m ρ c w).trans (((dat0 (V0 m ρ) c).arrAt_in w hw _).trans (A_eq0 (V0 m ρ) c w))

/-- The host operations between the regions leave the encoded rows and the bias as the first region left them. -/
theorem W2_v0_0 (c : Dev nD) : W2 m ρ c (Proc.devRef .tc main_v0_0) = W1 m ρ c (Proc.devRef .tc main_v0_0) :=
  StableHlo.after_of_forall_not_mem (b := Proc.devRef .tc main_v0_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W2_arg7 (c : Dev nD) : W2 m ρ c (Proc.devRef .tc main_arg7) = W1 m ρ c (Proc.devRef .tc main_arg7) :=
  StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The encoded rows the second region reads. -/
theorem rows_eq (c : Dev nD) (r : Fin 32768) (k : Fin 512) :
    cur2 (V2 m ρ c main_v0_0) r k = enc2 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) r k := by
  unfold cur2
  have e : V2 m ρ c main_v0_0 = (dat0 (V0 m ρ) c).arrAt 8 cfg0.N := (W2_v0_0 m ρ c).trans (W1_arr m ρ c 8)
  rw [e]
  exact Val0.h_array (V0 m ρ) c r k

/-- The matrix the second region reads: the updated memory matrix of the specification. -/
theorem matrix_eq (c : Dev nD) (i k : Fin 512) :
    cur2 (V2 m ρ c main_v12) i k = newW (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) i k := by
  unfold cur2
  have e : V2 m ρ c main_v12 = HostUpdate.updTerm (W1 m ρ c (Proc.devRef .tc main_v0_1)) (W1 m ρ c (Proc.devRef .tc main_arg6)) (W1 m ρ c (Proc.devRef .tc main_arg8)) (W1 m ρ c (Proc.devRef .tc main_arg9)) :=
    Val1.host_update (W1 m ρ c)
  have e6 : W1 m ρ c (Proc.devRef .tc main_arg6) = m ((c.tc : Thread nD τ).loc main_arg6) := W1_in m ρ c 6 rfl
  have e8 : W1 m ρ c (Proc.devRef .tc main_arg8) = m ((c.tc : Thread nD τ).loc main_arg8) := W1_of_ne m ρ c main_arg8 (by decide)
  have e9 : W1 m ρ c (Proc.devRef .tc main_arg9) = m ((c.tc : Thread nD τ).loc main_arg9) := W1_of_ne m ρ c main_arg9 (by decide)
  have eg : W1 m ρ c (Proc.devRef .tc main_v0_1) = (dat0 (V0 m ρ) c).arrAt 9 cfg0.N := W1_arr m ρ c 9
  rw [e, e6, e8, e9, eg, HostUpdate.updTerm_apply]
  exact Chunk.newW_of_chunks _ _ _ _ _ _ _ _ _ _ (fun p i j => (dat0 (V0 m ρ) c).arrAt 9 cfg0.N (ix3 p i j))
    (fun p i j => Val0.grad_array (V0 m ρ) c p i j) i k

/-- The bias the second region reads. -/
theorem bias_eq (c : Dev nD) : V2 m ρ c main_arg7 = m ((c.tc : Thread nD τ).loc main_arg7) :=
  (W2_arg7 m ρ c).trans (W1_in m ρ c 7 rfl)

/-- THE KERNEL'S RESULT: at every row r and feature j the result array holds the specification's out. -/
theorem kernel_value (c : Dev nD) (r : Fin 32768) (j : Fin 512) :
    W3 m ρ c (Proc.devRef .tc main_v13) (ix2 r j) = out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) r j := by
  have e3 : W3 m ρ c (Proc.devRef .tc main_v13) = (dat1 (V2 m ρ) c).arrAt 3 cfg1.N := W3_arr m ρ c 3
  rw [e3, Val1.out_array (V2 m ρ) c r j, bias_eq m ρ c]
  exact Chunk.out_rows _ _ _ _ _ _ _ _ _ _ (cur2 (V2 m ρ c main_v0_0)) (cur2 (V2 m ρ c main_v12)) id
    (fun q k => rows_eq m ρ c q k) (fun i k => matrix_eq m ρ c i k) r j

/-- The run with the result named: every execution ends with the result array at the last boundary's contents and the
    arguments as launched. -/
theorem run_value : θ_run defs (onTc (τ := τ) (main (F := Ideal))) ⟨m, fun _ => 0, ρ⟩ (fun r => ∀ c : Dev nD,
      r.2.mem ((c.tc : Thread nD τ).loc main_v13) = W3 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨h c _ (mem_uc main_v13 (by decide)),
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c),
    (h c _ (mem_uc main_arg9 (by decide))).trans (W3_main_arg9 m ρ c)⟩) (run_all m ρ)

end Cert.KernelIdeal.Fr

end
-- ==== Proof.RefValue.lean ====
/-
  The reference program, read entry by entry, is the specification.

  Each layer of the reference is a matrix product against a transposed weight matrix plus a bias row
  broadcast along the batch, followed (for the two encoder layers) by a maximum with zero. Read at
  row r and feature j, the product is the sum over k of (row r of the left operand at k) times
  (row j of the weight at k); the broadcast bias is the bias at j; the broadcast scalars are the
  scalars' single entry. The lemmas below go layer by layer, bottom up, and need no algebra: the
  specification keeps the operand order of the reference.
-/
import proofs.«101176_j62654982914321_1_alg».proof.Proof.Gen.ReferenceIdeal.Read
import proofs.«101176_j62654982914321_1_alg».proof.Proof.Spec

noncomputable section

open scoped BigOperators

namespace Cert.ReferenceIdeal.RefValue

open Cert.ReferenceIdeal Cert.ReferenceIdeal.Read Idealize.ShloMosaic Idealize.ShloMosaic.ValueIdx
  Cert.NeuralMemory

variable (x0 x1 : (⟨S32768x512, .f32⟩ : BufTy).Contents (Elt Ideal))
  (x2 : (⟨S512x512, .f32⟩ : BufTy).Contents (Elt Ideal))
  (x3 : (⟨S512, .f32⟩ : BufTy).Contents (Elt Ideal))
  (x4 : (⟨S512x512, .f32⟩ : BufTy).Contents (Elt Ideal))
  (x5 : (⟨S512, .f32⟩ : BufTy).Contents (Elt Ideal))
  (x6 : (⟨S512x512, .f32⟩ : BufTy).Contents (Elt Ideal))
  (x7 : (⟨S512, .f32⟩ : BufTy).Contents (Elt Ideal))
  (x8 x9 : (⟨S1, .f32⟩ : BufTy).Contents (Elt Ideal))

/-! ## The index maps of the reference's operations, at an index given by its coordinates -/

/-- Two rank-2 indices (or two rank-1 indices) with the same coordinates are equal. -/
local macro "by_coords" : tactic =>
  `(tactic| first
    | exact funext fun a => match a with | ⟨0, _⟩ => rfl | ⟨1, _⟩ => rfl
    | exact funext fun a => match a with | ⟨0, _⟩ => rfl)

theorem idx0 (k j : Fin 512) : idx_main_v0 (ix2 k j) = ix2 j k := by by_coords
theorem idx6 (k j : Fin 512) : idx_main_v6 (ix2 k j) = ix2 j k := by by_coords
theorem idx12 (k j : Fin 512) : idx_main_v12 (ix2 k j) = ix2 j k := by by_coords
theorem idx31 (k j : Fin 512) : idx_main_v31 (ix2 k j) = ix2 j k := by by_coords
theorem idx18 (i : Fin 512) (b : Fin 32768) : idx_main_v18 (ix2 i b) = ix2 b i := by by_coords

theorem lidx1 (r : Fin 32768) (j k : Fin 512) : lidx_main_v1 (ix2 r j) k = ix2 r k := by by_coords
theorem ridx1 (r : Fin 32768) (j k : Fin 512) : ridx_main_v1 (ix2 r j) k = ix2 k j := by by_coords
theorem lidx7 (r : Fin 32768) (j k : Fin 512) : lidx_main_v7 (ix2 r j) k = ix2 r k := by by_coords
theorem ridx7 (r : Fin 32768) (j k : Fin 512) : ridx_main_v7 (ix2 r j) k = ix2 k j := by by_coords
theorem lidx13 (r : Fin 32768) (j k : Fin 512) : lidx_main_v13 (ix2 r j) k = ix2 r k := by by_coords
theorem ridx13 (r : Fin 32768) (j k : Fin 512) : ridx_main_v13 (ix2 r j) k = ix2 k j := by by_coords
theorem lidx32 (r : Fin 32768) (j k : Fin 512) : lidx_main_v32 (ix2 r j) k = ix2 r k := by by_coords
theorem ridx32 (r : Fin 32768) (j k : Fin 512) : ridx_main_v32 (ix2 r j) k = ix2 k j := by by_coords
theorem lidx19 (i j : Fin 512) (b : Fin 32768) : lidx_main_v19 (ix2 i j) b = ix2 i b := by by_coords
theorem ridx19 (i j : Fin 512) (b : Fin 32768) : ridx_main_v19 (ix2 i j) b = ix2 b j := by by_coords

/-! ## Broadcasts -/

/-- The first layer's bias row, broadcast along the batch. -/
theorem bias3 (r : Fin 32768) (j : Fin 512) : val_main_v3 (F := Ideal) x3 (ix2 r j) = x3 (ix1 j) := by
  rw [val_main_v3_apply, val_main_v2_apply]
  exact congrArg x3 (by by_coords)

/-- The second layer's bias row, broadcast along the batch. -/
theorem bias9 (r : Fin 32768) (j : Fin 512) : val_main_v9 (F := Ideal) x5 (ix2 r j) = x5 (ix1 j) := by
  rw [val_main_v9_apply, val_main_v8_apply]
  exact congrArg x5 (by by_coords)

/-- The memory's bias row, broadcast along the batch (first read). -/
theorem bias15 (r : Fin 32768) (j : Fin 512) : val_main_v15 (F := Ideal) x7 (ix2 r j) = x7 (ix1 j) := by
  rw [val_main_v15_apply, val_main_v14_apply]
  exact congrArg x7 (by by_coords)

/-- The memory's bias row, broadcast along the batch (second read). -/
theorem bias34 (r : Fin 32768) (j : Fin 512) : val_main_v34 (F := Ideal) x7 (ix2 r j) = x7 (ix1 j) := by
  rw [val_main_v34_apply, val_main_v33_apply]
  exact congrArg x7 (by by_coords)

/-- The zero the first maximum is taken against. -/
theorem zero0 (i : S32768x512.Idx) : val_main_call0_v0 (F := Ideal) i = 0 := by
  rw [val_main_call0_v0_apply, val_main_call0_cst_apply, Ideal.ofBits_def, Ideal.ofBits_zero_f32]

/-- The zero the second maximum is taken against. -/
theorem zero1 (i : S32768x512.Idx) : val_main_call1_v0 (F := Ideal) i = 0 := by
  rw [val_main_call1_v0_apply, val_main_call1_cst_apply, Ideal.ofBits_def, Ideal.ofBits_zero_f32]

/-- The scale 2⁻²³, broadcast over the matrix. -/
theorem scale20 (i : S512x512.Idx) : val_main_v20 (F := Ideal) i = scaleW := by
  rw [val_main_v20_apply, val_main_cst_apply, Ideal.ofBits_def]

/-- The rate scalar, broadcast over the matrix. -/
theorem rate23 (i : S512x512.Idx) : val_main_v23 (F := Ideal) x9 i = x9 (ix1 0) := by
  rw [val_main_v23_apply, val_main_v22_apply]
  exact congrArg x9 (by by_coords)

/-- One minus the gate scalar, broadcast over the matrix. -/
theorem gate28 (i : S512x512.Idx) : val_main_v28 (F := Ideal) x8 i = oneW - x8 (ix1 0) := by
  rw [val_main_v28_apply, val_main_v27_apply, val_main_v26_apply, val_main_v25_apply,
    val_main_cst_0_apply, Ideal.ofBits_def, Ideal.subf_def]
  exact congrArg (fun t => oneW - x8 t) (by by_coords)

/-! ## The layers -/

/-- The first hidden layer of the reference is the specification's. -/
theorem ref_enc1 (r : Fin 32768) (j : Fin 512) :
    val_main_v5 (F := Ideal) x0 x2 x3 (ix2 r j) = enc1 x0 x2 x3 r j := by
  rw [val_main_v5_apply, val_main_v4_apply, val_main_v1_apply, zero0, bias3, Ideal.maximumf_def,
    Ideal.addf_def]
  unfold enc1 affine cur1
  refine congrArg (fun s => max (s + x3 (ix1 j)) 0) (Finset.sum_congr rfl fun k _ => ?_)
  rw [lidx1, ridx1, val_main_v0_apply, idx0]
  rfl

/-- The encoded keys of the reference are the specification's. -/
theorem ref_enc2 (r : Fin 32768) (j : Fin 512) :
    val_main_v11 (F := Ideal) x0 x2 x3 x4 x5 (ix2 r j) = enc2 x0 x2 x3 x4 x5 r j := by
  rw [val_main_v11_apply, val_main_v10_apply, val_main_v7_apply, zero1, bias9, Ideal.maximumf_def,
    Ideal.addf_def]
  unfold enc2 affine cur1
  refine congrArg (fun s => max (s + x5 (ix1 j)) 0) (Finset.sum_congr rfl fun k _ => ?_)
  rw [lidx7, ridx7, val_main_v6_apply, idx6, ref_enc1]
  rfl

/-- The residual of the reference is the specification's. -/
theorem ref_resid (r : Fin 32768) (j : Fin 512) :
    val_main_v17 (F := Ideal) x0 x1 x2 x3 x4 x5 x6 x7 (ix2 r j) = resid x0 x1 x2 x3 x4 x5 x6 x7 r j := by
  rw [val_main_v17_apply, val_main_v16_apply, val_main_v13_apply, bias15, Ideal.subf_def,
    Ideal.addf_def]
  unfold resid affine cur1
  refine congrArg (fun s => s + x7 (ix1 j) - cur2 x1 r j) (Finset.sum_congr rfl fun k _ => ?_)
  rw [lidx13, ridx13, val_main_v12_apply, idx12, ref_enc2]
  rfl

/-- The summed outer products of the reference are the specification's. -/
theorem ref_gradSum (i j : Fin 512) :
    val_main_v19 (F := Ideal) x0 x1 x2 x3 x4 x5 x6 x7 (ix2 i j) = gradSum x0 x1 x2 x3 x4 x5 x6 x7 i j := by
  rw [val_main_v19_apply]
  unfold gradSum
  refine Finset.sum_congr rfl fun b _ => ?_
  rw [lidx19, ridx19, val_main_v18_apply, idx18, ref_resid, ref_enc2]

/-- The updated memory matrix of the reference is the specification's. -/
theorem ref_newW (i j : Fin 512) :
    val_main_v30 (F := Ideal) x0 x1 x2 x3 x4 x5 x6 x7 x8 x9 (ix2 i j)
      = newW x0 x1 x2 x3 x4 x5 x6 x7 x8 x9 i j := by
  rw [val_main_v30_apply, val_main_v29_apply, val_main_v24_apply, val_main_v21_apply, gate28, rate23,
    scale20, ref_gradSum, Ideal.addf_def, Ideal.mulf_def, Ideal.mulf_def, Ideal.mulf_def]
  rfl

/-- The result of the reference is the specification's. -/
theorem ref_out (x0 x1 : (⟨S32768x512, .f32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal))
    (x6 : (⟨S512x512, .f32⟩ : BufTy).Contents (Elt Ideal)) (x7 : (⟨S512, .f32⟩ : BufTy).Contents (Elt Ideal))
    (x8 x9 : (⟨S1, .f32⟩ : BufTy).Contents (Elt Ideal)) (r : Fin 32768) (j : Fin 512) :
    Cert.ReferenceIdeal.Read.val_main_v35 (F := Ideal) x0 x1 x2 x3 x4 x5 x6 x7 x8 x9
        (Idealize.ShloMosaic.ValueIdx.ix2 r j)
      = Cert.NeuralMemory.out x0 x1 x2 x3 x4 x5 x6 x7 x8 x9 r j := by
  rw [val_main_v35_apply, val_main_v32_apply, bias34, Ideal.addf_def]
  unfold out affine cur1
  refine congrArg (fun s => s + x7 (ix1 j)) (Finset.sum_congr rfl fun k _ => ?_)
  rw [lidx32, ridx32, val_main_v31_apply, idx31, ref_newW, ref_enc2]

end Cert.ReferenceIdeal.RefValue

end
-- ==== Proof.lean ====
/-
  The certificate. A two-layer encoder of 32768 keys, a linear memory read, the residual against the targets, the
  summed outer products of residuals and encoded keys (accumulated tile by tile in two chunks by the kernel, in one
  contraction by the reference), the memory matrix updated with the scaled sum, and the memory read again: the kernel
  program (two kernel regions around a stretch of host operations) and the reference compute, at the ideal instance, the
  same extended reals at every index — sums over the batch in different groupings, and one product with its factors
  exchanged. The three frames: each program runs to the end, faults nowhere and leaves its arguments unchanged.
-/
import proofs.«101176_j62654982914321_1_alg».proof.Defs
import proofs.«101176_j62654982914321_1_alg».proof.Proof.Gen.Kernel
import proofs.«101176_j62654982914321_1_alg».proof.Proof.Gen.KernelIdeal
import proofs.«101176_j62654982914321_1_alg».proof.Proof.Gen.ReferenceIdeal
import proofs.«101176_j62654982914321_1_alg».proof.Proof.Gen.Pre_finite_inputs
import proofs.«101176_j62654982914321_1_alg».proof.Proof.Gen.ReferenceIdeal.Run
import proofs.«101176_j62654982914321_1_alg».proof.Proof.Gen.ReferenceIdeal.Read
import proofs.«101176_j62654982914321_1_alg».proof.Proof.WFrMain
import proofs.«101176_j62654982914321_1_alg».proof.Proof.KernelValue
import proofs.«101176_j62654982914321_1_alg».proof.Proof.RefValue

noncomputable section

namespace Cert.Proof

open Idealize.ShloMosaic Idealize.ShloMosaic.TcCoe Idealize.SL.Sem Idealize.ShloMosaic.ValueIdx

/-- The word-level kernel program runs, faults nowhere and leaves its arguments unchanged. -/
theorem frame_kernel : Cert.frame_Kernel := fun m ρ _ => Cert.Kernel.Fr.frame (F := Bits) m ρ
/-- So does the idealized kernel program. -/
theorem frame_kernelIdeal : Cert.frame_KernelIdeal := fun m ρ _ => Cert.KernelIdeal.Fr.frame (F := Ideal) m ρ
/-- And the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The two idealized programs, from memories agreeing on the arguments, end with the same result: both hold the
    specification's out at every row and feature. -/
theorem algebraic : Cert.algebraic_KernelIdeal_ReferenceIdeal := by
  intro m ρ m' ρ' _ hagree
  refine ⟨fun c => Cert.KernelIdeal.Fr.W3 m ρ c (Proc.devRef .tc Cert.KernelIdeal.main_v13), Cert.KernelIdeal.Fr.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  funext i
  obtain ⟨r, j, rfl⟩ : ∃ (r : Fin 32768) (j : Fin 512), i = ix2 r j := ⟨i 0, i 1, eq_ix2 i⟩
  exact (Cert.ReferenceIdeal.RefValue.ref_out _ _ _ _ _ _ _ _ _ _ r j).trans (Cert.KernelIdeal.Fr.kernel_value m ρ c r j).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
